-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x2048 : Shape := ⟨2, ![512, 2048]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S256x512 .f32) (main_arg1 : FVec F S512x2048 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Kernel.lean ====
abbrev S256x512 : Shape := ⟨2, ![256, 512]⟩
abbrev S512x2048 : Shape := ⟨2, ![512, 2048]⟩
abbrev S256x2048 : Shape := ⟨2, ![256, 2048]⟩
abbrev S256x128x16 : Shape := ⟨3, ![256, 128, 16]⟩
abbrev S256x128 : Shape := ⟨2, ![256, 128]⟩
abbrev S32x128x16 : Shape := ⟨3, ![32, 128, 16]⟩
abbrev S32x128 : Shape := ⟨2, ![32, 128]⟩
abbrev S32x128x256 : Shape := ⟨3, ![32, 128, 256]⟩
abbrev S32x128x1 : Shape := ⟨3, ![32, 128, 1]⟩
abbrev S256x128x1 : Shape := ⟨3, ![256, 128, 1]⟩
abbrev S128x256 : Shape := ⟨2, ![128, 256]⟩
abbrev S1x128x256 : Shape := ⟨3, ![1, 128, 256]⟩
abbrev S256x640 : Shape := ⟨2, ![256, 640]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S512x2048, .f32⟩
  | .hbm, ⟨2, _⟩ => ⟨S256x512, .bf16⟩
  | .hbm, ⟨3, _⟩ => ⟨S512x2048, .bf16⟩
  | .hbm, ⟨4, _⟩ => ⟨S256x2048, .f32⟩
  | .hbm, ⟨5, _⟩ => ⟨S256x128x16, .f32⟩
  | .hbm, ⟨6, _⟩ => ⟨S256x128, .f32⟩
  | .hbm, ⟨7, _⟩ => ⟨S256x640, .f32⟩
  | .local _ .vmem, ⟨0, _⟩ => ⟨S256x512, .bf16⟩
  | .local _ .vmem, ⟨1, _⟩ => ⟨S512x2048, .bf16⟩
  | .local _ .vmem, ⟨2, _⟩ => ⟨S256x2048, .f32⟩
  | .local _ .vmem, ⟨3, _⟩ => ⟨S32x128x16, .f32⟩
  | .local _ .vmem, ⟨4, _⟩ => ⟨S32x128x16, .f32⟩
  | .local _ .vmem, ⟨5, _⟩ => ⟨S256x128x16, .f32⟩
  | .local _ .vmem, ⟨6, _⟩ => ⟨S32x128, .f32⟩
  | .local _ .vmem, ⟨7, _⟩ => ⟨S32x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x128x16 : S256x2048.ShapeCasts S256x128x16
  inb_S32x128x16_S32x128x16_0_0_0 : ∀ a, (![0, 0, 0] : Fin 3 → Nat) a + S32x128x16.size a ≤ S32x128x16.size a
  h_S32x128x16 : 0 < S32x128x16.numel
  shapeCasts_S32x128x16_S32x128x16 : S32x128x16.ShapeCasts S32x128x16
  inb_S256x128x16_S256x128x16_0_0_0 : ∀ a, (![0, 0, 0] : Fin 3 → Nat) a + S256x128x16.size a ≤ S256x128x16.size a
  h_S256x128x16 : 0 < S256x128x16.numel
  shapeCasts_S256x128x16_S256x128x16 : S256x128x16.ShapeCasts S256x128x16
  slices_S32x128x16_o0_0_0_S32x128x1 : S32x128x16.Slices ![0, 0, 0] S32x128x1
  shapeCasts_S32x128x1_S32x128 : S32x128x1.ShapeCasts S32x128
  slices_S256x128x16_o0_0_0_S256x128x1 : S256x128x16.Slices ![0, 0, 0] S256x128x1
  shapeCasts_S256x128x1_S256x128 : S256x128x1.ShapeCasts S256x128
  shapeCasts_S32x128_S32x128x1 : S32x128.ShapeCasts S32x128x1
  transposes_S256x128_p1_0_S128x256 : S256x128.Transposes [1, 0] S128x256
  shapeCasts_S128x256_S1x128x256 : S128x256.ShapeCasts S1x128x256
  broadcasts_S32x128x1_S32x128x256 : S32x128x1.Broadcasts S32x128x256
  broadcasts_S1x128x256_S32x128x256 : S1x128x256.Broadcasts S32x128x256
  slices_S32x128x16_o0_0_1_S32x128x1 : S32x128x16.Slices ![0, 0, 1] S32x128x1
  slices_S256x128x16_o0_0_1_S256x128x1 : S256x128x16.Slices ![0, 0, 1] S256x128x1
  slices_S32x128x16_o0_0_2_S32x128x1 : S32x128x16.Slices ![0, 0, 2] S32x128x1
  slices_S256x128x16_o0_0_2_S256x128x1 : S256x128x16.Slices ![0, 0, 2] S256x128x1
  slices_S32x128x16_o0_0_3_S32x128x1 : S32x128x16.Slices ![0, 0, 3] S32x128x1
  slices_S256x128x16_o0_0_3_S256x128x1 : S256x128x16.Slices ![0, 0, 3] S256x128x1
  slices_S32x128x16_o0_0_4_S32x128x1 : S32x128x16.Slices ![0, 0, 4] S32x128x1
  slices_S256x128x16_o0_0_4_S256x128x1 : S256x128x16.Slices ![0, 0, 4] S256x128x1
  slices_S32x128x16_o0_0_5_S32x128x1 : S32x128x16.Slices ![0, 0, 5] S32x128x1
  slices_S256x128x16_o0_0_5_S256x128x1 : S256x128x16.Slices ![0, 0, 5] S256x128x1
  slices_S32x128x16_o0_0_6_S32x128x1 : S32x128x16.Slices ![0, 0, 6] S32x128x1
  slices_S256x128x16_o0_0_6_S256x128x1 : S256x128x16.Slices ![0, 0, 6] S256x128x1
  slices_S32x128x16_o0_0_7_S32x128x1 : S32x128x16.Slices ![0, 0, 7] S32x128x1
  slices_S256x128x16_o0_0_7_S256x128x1 : S256x128x16.Slices ![0, 0, 7] S256x128x1
  slices_S32x128x16_o0_0_8_S32x128x1 : S32x128x16.Slices ![0, 0, 8] S32x128x1
  slices_S256x128x16_o0_0_8_S256x128x1 : S256x128x16.Slices ![0, 0, 8] S256x128x1
  slices_S32x128x16_o0_0_9_S32x128x1 : S32x128x16.Slices ![0, 0, 9] S32x128x1
  slices_S256x128x16_o0_0_9_S256x128x1 : S256x128x16.Slices ![0, 0, 9] S256x128x1
  slices_S32x128x16_o0_0_10_S32x128x1 : S32x128x16.Slices ![0, 0, 10] S32x128x1
  slices_S256x128x16_o0_0_10_S256x128x1 : S256x128x16.Slices ![0, 0, 10] S256x128x1
  slices_S32x128x16_o0_0_11_S32x128x1 : S32x128x16.Slices ![0, 0, 11] S32x128x1
  slices_S256x128x16_o0_0_11_S256x128x1 : S256x128x16.Slices ![0, 0, 11] S256x128x1
  slices_S32x128x16_o0_0_12_S32x128x1 : S32x128x16.Slices ![0, 0, 12] S32x128x1
  slices_S256x128x16_o0_0_12_S256x128x1 : S256x128x16.Slices ![0, 0, 12] S256x128x1
  slices_S32x128x16_o0_0_13_S32x128x1 : S32x128x16.Slices ![0, 0, 13] S32x128x1
  slices_S256x128x16_o0_0_13_S256x128x1 : S256x128x16.Slices ![0, 0, 13] S256x128x1
  slices_S32x128x16_o0_0_14_S32x128x1 : S32x128x16.Slices ![0, 0, 14] S32x128x1
  slices_S256x128x16_o0_0_14_S256x128x1 : S256x128x16.Slices ![0, 0, 14] S256x128x1
  slices_S32x128x16_o0_0_15_S32x128x1 : S32x128x16.Slices ![0, 0, 15] S32x128x1
  slices_S256x128x16_o0_0_15_S256x128x1 : S256x128x16.Slices ![0, 0, 15] S256x128x1
  reduces_S32x128x256_S32x128 : S32x128x256.Reduces [2] S32x128
  inb_S32x128_S32x128_0_0 : ∀ a, (![0, 0] : Fin 2 → Nat) a + S32x128.size a ≤ S32x128.size a
  h_S32x128 : 0 < S32x128.numel
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .bf16 = 32 ∨ (Rect.block (s := S256x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .f32 = 32 ∨ (Rect.block (s := S256x2048) S256x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x16.size a ≤ S256x128x16.size a
  hwx1_0 : ∀ i : grid1.Coords, EltTy.bits .f32 = 32 ∨ (Rect.block (s := S256x128x16) S32x128x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128x16.size a ≤ S256x128x16.size a
  hwx1_1 : ∀ i : grid1.Coords, EltTy.bits .f32 = 32 ∨ (Rect.block (s := S256x128x16) S256x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S256x128.size a
  hwx1_2 : ∀ i : grid1.Coords, EltTy.bits .f32 = 32 ∨ (Rect.block (s := S256x128) S32x128.size (cc1_transform_2 i) (hinb1_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S32x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x512 : Shape := ⟨2, ![256, 512]⟩
abbrev S512x2048 : Shape := ⟨2, ![512, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x128 : Shape := ⟨2, ![256, 128]⟩
abbrev S256x640 : Shape := ⟨2, ![256, 640]⟩

abbrev nBuf : Space → Nat
  | .hbm => 20
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x2048, .f32⟩
  | .hbm, ⟨2, _⟩ => ⟨S256x2048, .f32⟩
  | .hbm, ⟨3, _⟩ => ⟨S256x128x16, .f32⟩
  | .hbm, ⟨4, _⟩ => ⟨S1x256x128x16, .f32⟩
  | .hbm, ⟨5, _⟩ => ⟨S256x1x128x16, .f32⟩
  | .hbm, ⟨6, _⟩ => ⟨S256x256x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S_, .f32⟩
  | .hbm, ⟨11, _⟩ => ⟨S256x256x128, .f32⟩
  | .hbm, ⟨12, _⟩ => ⟨S256x256x128, .f32⟩
  | .hbm, ⟨13, _⟩ => ⟨S256x256x128, .f32⟩
  | .hbm, ⟨14, _⟩ => ⟨S_, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x640, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  reducesTo_S256x256x128_S256x128_d0 : S256x256x128.ReducesTo [0] S256x128
  bcast_S_S256x128 : S_.BroadcastsInDim S256x128 (![] : Fin 0 → Fin S256x128.rank)
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

class Facts : Prop extends Facts₀ where

variable [Facts]
-- ==== Proof.K.Region0.lean ====
/-
  The matrix-product call of the program as one pipeline region, at any contents `V` of the core's buffers when the
  region is entered. The grid has one point; each of the three windows is its whole array. The body loads the two
  operand blocks, forms their product on a zero accumulator and stores it over the whole output block, so after the
  body the output's buffer holds the product of the two operand blocks, and the two operand buffers hold what they held.
-/
import proofs.«130254_j19593640804692_2_alg».proof.Proof.Gen.Kernel.Launch
import proofs.«130254_j19593640804692_2_alg».proof.Proof.Gen.Kernel.Skeleton
import proofs.«130254_j19593640804692_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole block -/

abbrev r0_0 : Rect S256x512 := Rect.unit (s := S256x512) ![0, 0] S256x512.size inb_S256x512_S256x512_0_0
abbrev r0_1 : Rect S512x2048 := Rect.unit (s := S512x2048) ![0, 0] S512x2048.size inb_S512x2048_S512x2048_0_0
abbrev r0_2 : Rect S256x2048 := Rect.unit (s := S256x2048) ![0, 0] S256x2048.size inb_S256x2048_S256x2048_0_0

/-- The output block after the body: the product of the two operand blocks, stored over the whole block. -/
def out0_2 (x0 : Vec F S256x512 .bf16) (x1 : Vec F S512x2048 .bf16) : Vec F S256x2048 .f32 :=
  View.canon [⟨r0_2, k0_pay1 (View.ld x0 r0_0) (View.ld x1 r0_1)⟩]

/-- The one store covers the block. -/
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-! ## The body's triple -/

set_option maxHeartbeats 1000000 in
/-- The body on whole staging buffers, the operands' at contents `x0`, `x1` and the output's at anything, runs to
    the continuation with the operands' as they were and the output's at `out0_2 x0 x1`. -/
theorem sound_kernel0 (c : Dev nD) (E : Set ℕ) (i : grid0.Coords)
    (arg1 : Memref sig .tc .vmem S256x512 .bf16) (harg1 : arg1.IsWhole) (arg2 : Memref sig .tc .vmem S512x2048 .bf16) (harg2 : arg2.IsWhole)
    (arg3 : Memref sig .tc .vmem S256x2048 .f32) (harg3 : arg3.IsWhole)
    (x0 : Vec F S256x512 .bf16) (x1 : Vec F S512x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each operand's buffer at its block and the output's at the
    product of the operand blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Pay.lean ====
/-
  The value the pairwise body stores, as one function of the two blocks it loads: the sixteen accumulation steps and
  the closing exponential, row sum and subtraction composed in program order.
-/
import proofs.«130254_j19593640804692_2_alg».proof.Proof.Gen.Kernel.Skeleton

noncomputable section

namespace Cert.Kernel.Hand

open Idealize.ShloMosaic Cert.Kernel Cert.Kernel.Gen

variable {F : FTy → Type} [FloatOps F]

/-- What the pairwise body stores into its output block, from the query block `v0` [32,128,16] and the key array
    `v2` [256,128,16] it loads. -/
def body1 (v0 : Vec F S32x128x16 .f32) (v2 : Vec F S256x128x16 .f32) : FVec F S32x128 .f32 :=
  k1_pay1 (k1_pay2 v0) (k1_pay3 v2)
    (k1_pay8 (k1_pay2 v0) (k1_pay3 v2)
      (k1_pay6 (k1_pay2 v0) (k1_pay3 v2) (k1_pay4 v0 v2) (k1_pay5 v0 v2))
      (k1_pay7 (k1_pay2 v0) (k1_pay3 v2)))
    (k1_pay9 (k1_pay2 v0) (k1_pay3 v2))

end Cert.Kernel.Hand

end
-- ==== Proof.K.Region1.lean ====
/-
  The pairwise call of the program as one pipeline region, at any contents `V` of the core's buffers when the region
  is entered. The grid has eight points. Window 0 is the block of 32 consecutive rows of the feature array that the
  point indexes; window 1 is the whole feature array, the same at every point; window 2 is the block of 32 rows of the
  result. The body loads the query block and the key array, computes the stored value from them, and stores it over the
  whole output block; so after the body the output's buffer holds that value of the two input blocks, and the two input
  buffers hold what they held.
-/
import proofs.«130254_j19593640804692_2_alg».proof.Proof.Gen.Kernel.Launch
import proofs.«130254_j19593640804692_2_alg».proof.Proof.Gen.Kernel.Skeleton
import proofs.«130254_j19593640804692_2_alg».proof.Proof.Gen.Kernel.Points
import proofs.«130254_j19593640804692_2_alg».proof.Proof.K.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (the whole-array window is
    fetched at the first point only and its index never moves), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole block -/

abbrev r1_0 : Rect S32x128x16 := Rect.unit (s := S32x128x16) ![0, 0, 0] S32x128x16.size inb_S32x128x16_S32x128x16_0_0_0
abbrev r1_1 : Rect S256x128x16 := Rect.unit (s := S256x128x16) ![0, 0, 0] S256x128x16.size inb_S256x128x16_S256x128x16_0_0_0
abbrev r1_2 : Rect S32x128 := Rect.unit (s := S32x128) ![0, 0] S32x128.size inb_S32x128_S32x128_0_0

/-- The output block after the body: the stored value of the two input blocks, over the whole block. -/
def out1_2 (x0 : Vec F S32x128x16 .f32) (x1 : Vec F S256x128x16 .f32) : Vec F S32x128 .f32 :=
  View.canon [⟨r1_2, body1 (View.ld x0 r1_0) (View.ld x1 r1_1)⟩]

/-- The one store covers the block. -/
theorem cover1_2 (p0 : Vec F S32x128 .f32) (y : S32x128.Idx) :
    ∃ pc ∈ ([⟨r1_2, p0⟩] : List (View.Piece (Elt F) S32x128 .f32)), y ∈ pc.1.set :=
  View.cover_of_tiled [⟨r1_2, p0⟩] S32x128.size (by rfl) y

/-! ## The body's triple -/

set_option maxHeartbeats 4000000 in
/-- The body on whole staging buffers, the inputs' at contents `x0`, `x1` and the output's at anything, runs to the
    continuation with the inputs' as they were and the output's at `out1_2 x0 x1`. -/
theorem sound_kernel1 (c : Dev nD) (E : Set ℕ) (i : grid1.Coords)
    (arg1 : Memref sig .tc .vmem S32x128x16 .f32) (harg1 : arg1.IsWhole) (arg2 : Memref sig .tc .vmem S256x128x16 .f32) (harg2 : arg2.IsWhole)
    (arg3 : Memref sig .tc .vmem S32x128 .f32) (harg3 : arg3.IsWhole)
    (x0 : Vec F S32x128x16 .f32) (x1 : Vec F S256x128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The arrays as the region finds them; after the body each input's buffer at its block and the output's at the
    stored value of the input blocks; the scoped rest and the generator register untouched; nothing owed. The two input
    windows read ONE array: each holds half of it (the two halves of the full share), the output's is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fold.lean ====
/-
  The whole program on one core, from launch to return: two type conversions on the host, the matrix-product region, a
  reshape on the host, the pairwise region, and the closing concatenation on the host. The contents of every buffer the
  program's regions do not hide are followed through the five stretches (`W0` … `W5`): a host stretch applies its
  operations, a region overwrites its result array with what its write-backs leave and changes nothing else. Every
  weakly fair execution terminates in a state whose buffers hold `W5`; the two argument arrays are never written.

  The pairwise region reads ONE array, the reshaped features, through two windows. Each window holds half of that
  array while the region runs: at the region's entry the array's full share is split in two, at its exit the two
  halves (both still at the entry contents, an input array is never written) are joined again.
-/
import proofs.«130254_j19593640804692_2_alg».proof.Proof.Gen.Kernel.Launch
import proofs.«130254_j19593640804692_2_alg».proof.Proof.Gen.Kernel.Skeleton
import proofs.«130254_j19593640804692_2_alg».proof.Proof.Gen.Kernel.Points
import proofs.«130254_j19593640804692_2_alg».proof.Proof.K.Region0
import proofs.«130254_j19593640804692_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two conversions (the matrix-product region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the matrix-product region's exit: its result array at what the write-back leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the pairwise region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise region's exit: its result array at what the eight write-backs leave, every other buffer as entered. -/
def W4 (c : Dev nD) : Valuation τ sig (Elt F) :=
  Function.update (W3 m ρ c) (Proc.devRef .tc main_v4) ((dat1 (V3 m ρ) c).arrAt 2 cfg1.N)
theorem W4_out (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- After the concatenation: the program's end. -/
abbrev W5 : Dev nD → Valuation τ sig (Elt F) := fun c => StableHlo.after hostOps2 (W4 m ρ c)

/-! ## The arguments end as launched -/

theorem hostOps0_keep (c : Dev nD) (V : Valuation τ sig (Elt F)) (b : Ref sig .tc) (h0 : b ≠ main_v0) (h1 : b ≠ main_v1) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))
theorem hostOps1_keep (c : Dev nD) (V : Valuation τ sig (Elt F)) (b : Ref sig .tc) (h0 : b ≠ main_v3) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h0))
theorem hostOps2_keep (c : Dev nD) (V : Valuation τ sig (Elt F)) (b : Ref sig .tc) (h0 : b ≠ main_v5) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne h0))

/-- A buffer that no host operation and no region writes holds at the end what it held at launch. -/
theorem W5_keep (c : Dev nD) (b : Ref sig .tc) (h0 : b ≠ main_v0) (h1 : b ≠ main_v1) (h2 : b ≠ main_v2) (h3 : b ≠ main_v3)
    (h4 : b ≠ main_v4) (h5 : b ≠ main_v5) (hne : ∀ w, Pipeline.arrRef spec0 w ≠ b) :
    W5 m ρ c (Proc.devRef .tc b) = m ((c : Thread nD τ).loc b) :=
  calc W5 m ρ c (Proc.devRef .tc b)
    _ = W4 m ρ c (Proc.devRef .tc b) := hostOps2_keep c _ b h5
    _ = W3 m ρ c (Proc.devRef .tc b) := W4_of_ne m ρ c b h4
    _ = W2 m ρ c (Proc.devRef .tc b) := hostOps1_keep c _ b h3
    _ = W1 m ρ c (Proc.devRef .tc b) := W2_of_ne m ρ c b hne
    _ = W0 m ρ c (Proc.devRef .tc b) := hostOps0_keep c _ b h0 h1
    _ = m ((c : Thread nD τ).loc b) := rfl

theorem W5_main_arg0 (c : Dev nD) : W5 m ρ c (Proc.devRef .tc main_arg0) = m ((c : Thread nD τ).loc main_arg0) :=
  W5_keep m ρ c main_arg0 (by decide) (by decide) (by decide) (by decide) (by decide) (by decide) (by decide)
theorem W5_main_arg1 (c : Dev nD) : W5 m ρ c (Proc.devRef .tc main_arg1) = m ((c : Thread nD τ).loc main_arg1) :=
  W5_keep m ρ c main_arg1 (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unhidden buffer at `W5`, the generator register at some state. -/
abbrev Tₙ (c : Dev nD) : sProp 𝕄 := iprop(StableHlo.held (c : Thread nD τ) (Pipeline.ucRefs τ sig) (W5 m ρ c) ∗ ∃ r, prngReg c r)

end Cert.Kernel.Hand

end
-- ==== Proof.K.Shared.lean ====
/-
  One array read through two windows. The pairwise region's two input windows both read the reshaped feature array;
  its output window writes the result array. While the region runs each input window holds one half of the feature
  array's share and the output window holds the result array outright. The two distinct buffers behind the three
  windows, each held whole, are therefore exactly the region's three arrays at contents that agree with the buffers':
  the feature array's full share is the composite of its two halves.
-/
import proofs.«130254_j19593640804692_2_alg».proof.Proof.Gen.Kernel.Launch
import proofs.«130254_j19593640804692_2_alg».proof.Proof.Gen.Kernel.Skeleton
import proofs.«130254_j19593640804692_2_alg».proof.Proof.Gen.Kernel.Points
import proofs.«130254_j19593640804692_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the pairwise region's windows, held whole at contents `V'`, are the region's arrays at any
    contents `Fa` that read `V'` at each window's array — the feature array split into its two half shares. -/
theorem arrays1_iff (c : Dev nD) (V' : (b : Ref sig .tc) → Buf (Elt F) ((c : Thread nD τ).loc b))
    (dat : Dat τ (Elt F) Unit ℕ (UR sig nD τ) ℕ cfg1 c) (hq0 : dat.q 0 = fullShare.left) (hq1 : dat.q 1 = fullShare.right)
    (Fa : (w : Fin cfg1.W) → Buf (Elt F) ((cfg1.win w).arr.view.loc (c.tc : Thread nD τ)))
    (h0 : Fa 0 = V' (Pipeline.arrRef spec1 0)) (h1 : Fa 1 = V' (Pipeline.arrRef spec1 1)) (h2 : Fa 2 = V' (Pipeline.arrRef spec1 2)) :
    (Pipeline.arrBufs (Ix := Unit) (Name := ℕ) (U := UR sig nD τ) (Lvl := ℕ) spec1 c V' : sProp 𝕄) ⊣⊢ dat.arrays Fa := by
  unfold Pipeline.arrBufs Dat.arrays
  rw [bigSep_W1, bigSep_eq_bigSepL_of_eq [main_v3, main_v4] (by decide) (by decide)]
  have s0 : dat.share 0 = fullShare.left := (if_neg (by decide)).trans hq0
  have s1 : dat.share 1 = fullShare.right := (if_neg (by decide)).trans hq1
  have s2 : dat.share 2 = fullShare := if_pos (by decide)
  have e0 : (cfg1.win 0).arr.view.set = Finset.univ := (arr_whole1 0).set_eq_univ
  have e2 : (cfg1.win 2).arr.view.set = Finset.univ := (arr_whole1 2).set_eq_univ
  rw [s0, s1, s2, e0, e2, h0, h1, h2]
  have hsh : (((c.tc : Thread nD τ).loc main_v3) ↦{fullShare} V' main_v3 : sProp 𝕄)
      ⊣⊢ iprop((((c.tc : Thread nD τ).loc main_v3) ↦{fullShare.left} V' main_v3) ∗ ((c.tc : Thread nD τ).loc main_v3) ↦{fullShare.right} V' main_v3) :=
    pointsTo_share (PosShare.mem_left_op_right fullShare)
  show (iprop((((c.tc : Thread nD τ).loc main_v3) ↦{fullShare} V' main_v3) ∗ (((c.tc : Thread nD τ).loc main_v4) ↦{fullShare} V' main_v4)) : sProp 𝕄) ⊣⊢ _
  exact ⟨(sep_mono hsh.1 .rfl).trans Idealize.SL.BI.sep_assoc, Idealize.SL.BI.sep_assoc'.trans (sep_mono hsh.2 .rfl)⟩

end Cert.Kernel.Hand

end
-- ==== Proof.K.Run.lean ====
/-
  The program's run, stretch by stretch: each host stretch applies its operations to the buffers it is handed; each
  region takes its arrays out of the core's buffers at its entry, runs its pipeline, and puts them back at its exit with
  the result array at what the write-backs leave. From any launch memory with zero counters every weakly fair execution
  terminates with every buffer the regions do not hide at the last boundary's contents `W5`; in particular the result
  buffer holds `W5` there and the two argument arrays hold what they held at launch.
-/
import proofs.«130254_j19593640804692_2_alg».proof.Proof.Gen.Kernel.Launch
import proofs.«130254_j19593640804692_2_alg».proof.Proof.Gen.Kernel.Skeleton
import proofs.«130254_j19593640804692_2_alg».proof.Proof.Gen.Kernel.Points
import proofs.«130254_j19593640804692_2_alg».proof.Proof.K.Fold
import proofs.«130254_j19593640804692_2_alg».proof.Proof.K.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions -/

set_option backward.isDefEq.respectTransparency.types false in
/-- The matrix-product region: entered from every buffer at `W1`, left at `W2`. Its arrays are split out of the core's
    buffers and put back at the exit contents; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the pairwise region's exit each of its arrays holds what `W4` says: the feature array (both input windows')
    its entry contents, the result array what the write-backs leave. -/
theorem hF1_in (c : Dev nD) (w : Fin cfg1.W) (hw : (cfg1.win w).isOut = false) (hne : Pipeline.arrRef spec1 w ≠ main_v4) :
    (dat1 (V3 m ρ) c).arrAt w cfg1.N = V4 m ρ c (Pipeline.arrRef spec1 w) :=
  (((dat1 (V3 m ρ) c).arrAt_in w hw _).trans (A_eq1 (V3 m ρ) c w)).trans (W4_of_ne m ρ c _ hne).symm
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e.symm⟩)

set_option backward.isDefEq.respectTransparency.types false in
/-- The pairwise region: entered from every buffer at `W3`, left at `W4`. The feature array's full share is split
    between the two windows that read it at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (Ix := Unit) (Name := ℕ) (U := UR sig nD τ) (Lvl := ℕ) cfgs 1 winFacts₀1.arr_unscoped c (V3 m ρ c)]
      exact sep_mono (arrays1_iff c (V3 m ρ c) (pdats m ρ 1 c) rfl rfl ((pdats m ρ 1 c).arrAt · 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (Ix := Unit) (Name := ℕ) (U := UR sig nD τ) (Lvl := ℕ) cfgs 1 winFacts₀1.arr_unscoped c (V4 m ρ c)]
      refine sep_mono (arrays1_iff c (V4 m ρ c) (pdats m ρ 1 c) rfl rfl ((pdats m ρ 1 c).arrAt · cfg1.N)
        (hF1_in m ρ c 0 rfl (by decide)) (hF1_in m ρ c 1 rfl (by decide)) (W4_out m ρ c).symm).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds each unhidden buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the three buffers the claims name: the result at `W5`, the two arguments as launched. -/
theorem run_main : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W5_main_arg0 m ρ c),
     (h c _ (mem_uc main_arg1 (by decide))).trans (W5_main_arg1 m ρ c)⟩) (run_all m ρ)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.Kernel.Hand

end
-- ==== Proof.KI.Region0.lean ====
/-
  The matrix-product call of the program as one pipeline region, at any contents `V` of the core's buffers when the
  region is entered. The grid has one point; each of the three windows is its whole array. The body loads the two
  operand blocks, forms their product on a zero accumulator and stores it over the whole output block, so after the
  body the output's buffer holds the product of the two operand blocks, and the two operand buffers hold what they held.
-/
import proofs.«130254_j19593640804692_2_alg».proof.Proof.Gen.KernelIdeal.Launch
import proofs.«130254_j19593640804692_2_alg».proof.Proof.Gen.KernelIdeal.Skeleton
import proofs.«130254_j19593640804692_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole block -/

abbrev r0_0 : Rect S256x512 := Rect.unit (s := S256x512) ![0, 0] S256x512.size inb_S256x512_S256x512_0_0
abbrev r0_1 : Rect S512x2048 := Rect.unit (s := S512x2048) ![0, 0] S512x2048.size inb_S512x2048_S512x2048_0_0
abbrev r0_2 : Rect S256x2048 := Rect.unit (s := S256x2048) ![0, 0] S256x2048.size inb_S256x2048_S256x2048_0_0

/-- The output block after the body: the product of the two operand blocks, stored over the whole block. -/
def out0_2 (x0 : Vec F S256x512 .bf16) (x1 : Vec F S512x2048 .bf16) : Vec F S256x2048 .f32 :=
  View.canon [⟨r0_2, k0_pay1 (View.ld x0 r0_0) (View.ld x1 r0_1)⟩]

/-- The one store covers the block. -/
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-! ## The body's triple -/

set_option maxHeartbeats 1000000 in
/-- The body on whole staging buffers, the operands' at contents `x0`, `x1` and the output's at anything, runs to
    the continuation with the operands' as they were and the output's at `out0_2 x0 x1`. -/
theorem sound_kernel0 (c : Dev nD) (E : Set ℕ) (i : grid0.Coords)
    (arg1 : Memref sig .tc .vmem S256x512 .bf16) (harg1 : arg1.IsWhole) (arg2 : Memref sig .tc .vmem S512x2048 .bf16) (harg2 : arg2.IsWhole)
    (arg3 : Memref sig .tc .vmem S256x2048 .f32) (harg3 : arg3.IsWhole)
    (x0 : Vec F S256x512 .bf16) (x1 : Vec F S512x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each operand's buffer at its block and the output's at the
    product of the operand blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Pay.lean ====
/-
  The value the pairwise body stores, as one function of the two blocks it loads: the sixteen accumulation steps and
  the closing exponential, row sum and subtraction composed in program order.
-/
import proofs.«130254_j19593640804692_2_alg».proof.Proof.Gen.KernelIdeal.Skeleton

noncomputable section

namespace Cert.KernelIdeal.Hand

open Idealize.ShloMosaic Cert.KernelIdeal Cert.KernelIdeal.Gen

variable {F : FTy → Type} [FloatOps F]

/-- What the pairwise body stores into its output block, from the query block `v0` [32,128,16] and the key array
    `v2` [256,128,16] it loads. -/
def body1 (v0 : Vec F S32x128x16 .f32) (v2 : Vec F S256x128x16 .f32) : FVec F S32x128 .f32 :=
  k1_pay1 (k1_pay2 v0) (k1_pay3 v2)
    (k1_pay8 (k1_pay2 v0) (k1_pay3 v2)
      (k1_pay6 (k1_pay2 v0) (k1_pay3 v2) (k1_pay4 v0 v2) (k1_pay5 v0 v2))
      (k1_pay7 (k1_pay2 v0) (k1_pay3 v2)))
    (k1_pay9 (k1_pay2 v0) (k1_pay3 v2))

end Cert.KernelIdeal.Hand

end
-- ==== Proof.KI.Region1.lean ====
/-
  The pairwise call of the program as one pipeline region, at any contents `V` of the core's buffers when the region
  is entered. The grid has eight points. Window 0 is the block of 32 consecutive rows of the feature array that the
  point indexes; window 1 is the whole feature array, the same at every point; window 2 is the block of 32 rows of the
  result. The body loads the query block and the key array, computes the stored value from them, and stores it over the
  whole output block; so after the body the output's buffer holds that value of the two input blocks, and the two input
  buffers hold what they held.
-/
import proofs.«130254_j19593640804692_2_alg».proof.Proof.Gen.KernelIdeal.Launch
import proofs.«130254_j19593640804692_2_alg».proof.Proof.Gen.KernelIdeal.Skeleton
import proofs.«130254_j19593640804692_2_alg».proof.Proof.Gen.KernelIdeal.Points
import proofs.«130254_j19593640804692_2_alg».proof.Proof.KI.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (the whole-array window is
    fetched at the first point only and its index never moves), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole block -/

abbrev r1_0 : Rect S32x128x16 := Rect.unit (s := S32x128x16) ![0, 0, 0] S32x128x16.size inb_S32x128x16_S32x128x16_0_0_0
abbrev r1_1 : Rect S256x128x16 := Rect.unit (s := S256x128x16) ![0, 0, 0] S256x128x16.size inb_S256x128x16_S256x128x16_0_0_0
abbrev r1_2 : Rect S32x128 := Rect.unit (s := S32x128) ![0, 0] S32x128.size inb_S32x128_S32x128_0_0

/-- The output block after the body: the stored value of the two input blocks, over the whole block. -/
def out1_2 (x0 : Vec F S32x128x16 .f32) (x1 : Vec F S256x128x16 .f32) : Vec F S32x128 .f32 :=
  View.canon [⟨r1_2, body1 (View.ld x0 r1_0) (View.ld x1 r1_1)⟩]

/-- The one store covers the block. -/
theorem cover1_2 (p0 : Vec F S32x128 .f32) (y : S32x128.Idx) :
    ∃ pc ∈ ([⟨r1_2, p0⟩] : List (View.Piece (Elt F) S32x128 .f32)), y ∈ pc.1.set :=
  View.cover_of_tiled [⟨r1_2, p0⟩] S32x128.size (by rfl) y

/-! ## The body's triple -/

set_option maxHeartbeats 4000000 in
/-- The body on whole staging buffers, the inputs' at contents `x0`, `x1` and the output's at anything, runs to the
    continuation with the inputs' as they were and the output's at `out1_2 x0 x1`. -/
theorem sound_kernel1 (c : Dev nD) (E : Set ℕ) (i : grid1.Coords)
    (arg1 : Memref sig .tc .vmem S32x128x16 .f32) (harg1 : arg1.IsWhole) (arg2 : Memref sig .tc .vmem S256x128x16 .f32) (harg2 : arg2.IsWhole)
    (arg3 : Memref sig .tc .vmem S32x128 .f32) (harg3 : arg3.IsWhole)
    (x0 : Vec F S32x128x16 .f32) (x1 : Vec F S256x128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The arrays as the region finds them; after the body each input's buffer at its block and the output's at the
    stored value of the input blocks; the scoped rest and the generator register untouched; nothing owed. The two input
    windows read ONE array: each holds half of it (the two halves of the full share), the output's is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The whole program on one core, from launch to return: two type conversions on the host, the matrix-product region, a
  reshape on the host, the pairwise region, and the closing concatenation on the host. The contents of every buffer the
  program's regions do not hide are followed through the five stretches (`W0` … `W5`): a host stretch applies its
  operations, a region overwrites its result array with what its write-backs leave and changes nothing else. Every
  weakly fair execution terminates in a state whose buffers hold `W5`; the two argument arrays are never written.

  The pairwise region reads ONE array, the reshaped features, through two windows. Each window holds half of that
  array while the region runs: at the region's entry the array's full share is split in two, at its exit the two
  halves (both still at the entry contents, an input array is never written) are joined again.
-/
import proofs.«130254_j19593640804692_2_alg».proof.Proof.Gen.KernelIdeal.Launch
import proofs.«130254_j19593640804692_2_alg».proof.Proof.Gen.KernelIdeal.Skeleton
import proofs.«130254_j19593640804692_2_alg».proof.Proof.Gen.KernelIdeal.Points
import proofs.«130254_j19593640804692_2_alg».proof.Proof.KI.Region0
import proofs.«130254_j19593640804692_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two conversions (the matrix-product region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the matrix-product region's exit: its result array at what the write-back leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the pairwise region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise region's exit: its result array at what the eight write-backs leave, every other buffer as entered. -/
def W4 (c : Dev nD) : Valuation τ sig (Elt F) :=
  Function.update (W3 m ρ c) (Proc.devRef .tc main_v4) ((dat1 (V3 m ρ) c).arrAt 2 cfg1.N)
theorem W4_out (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- After the concatenation: the program's end. -/
abbrev W5 : Dev nD → Valuation τ sig (Elt F) := fun c => StableHlo.after hostOps2 (W4 m ρ c)

/-! ## The arguments end as launched -/

theorem hostOps0_keep (c : Dev nD) (V : Valuation τ sig (Elt F)) (b : Ref sig .tc) (h0 : b ≠ main_v0) (h1 : b ≠ main_v1) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))
theorem hostOps1_keep (c : Dev nD) (V : Valuation τ sig (Elt F)) (b : Ref sig .tc) (h0 : b ≠ main_v3) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h0))
theorem hostOps2_keep (c : Dev nD) (V : Valuation τ sig (Elt F)) (b : Ref sig .tc) (h0 : b ≠ main_v5) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne h0))

/-- A buffer that no host operation and no region writes holds at the end what it held at launch. -/
theorem W5_keep (c : Dev nD) (b : Ref sig .tc) (h0 : b ≠ main_v0) (h1 : b ≠ main_v1) (h2 : b ≠ main_v2) (h3 : b ≠ main_v3)
    (h4 : b ≠ main_v4) (h5 : b ≠ main_v5) (hne : ∀ w, Pipeline.arrRef spec0 w ≠ b) :
    W5 m ρ c (Proc.devRef .tc b) = m ((c : Thread nD τ).loc b) :=
  calc W5 m ρ c (Proc.devRef .tc b)
    _ = W4 m ρ c (Proc.devRef .tc b) := hostOps2_keep c _ b h5
    _ = W3 m ρ c (Proc.devRef .tc b) := W4_of_ne m ρ c b h4
    _ = W2 m ρ c (Proc.devRef .tc b) := hostOps1_keep c _ b h3
    _ = W1 m ρ c (Proc.devRef .tc b) := W2_of_ne m ρ c b hne
    _ = W0 m ρ c (Proc.devRef .tc b) := hostOps0_keep c _ b h0 h1
    _ = m ((c : Thread nD τ).loc b) := rfl

theorem W5_main_arg0 (c : Dev nD) : W5 m ρ c (Proc.devRef .tc main_arg0) = m ((c : Thread nD τ).loc main_arg0) :=
  W5_keep m ρ c main_arg0 (by decide) (by decide) (by decide) (by decide) (by decide) (by decide) (by decide)
theorem W5_main_arg1 (c : Dev nD) : W5 m ρ c (Proc.devRef .tc main_arg1) = m ((c : Thread nD τ).loc main_arg1) :=
  W5_keep m ρ c main_arg1 (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unhidden buffer at `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Hand

end
-- ==== Proof.KI.Shared.lean ====
/-
  One array read through two windows. The pairwise region's two input windows both read the reshaped feature array;
  its output window writes the result array. While the region runs each input window holds one half of the feature
  array's share and the output window holds the result array outright. The two distinct buffers behind the three
  windows, each held whole, are therefore exactly the region's three arrays at contents that agree with the buffers':
  the feature array's full share is the composite of its two halves.
-/
import proofs.«130254_j19593640804692_2_alg».proof.Proof.Gen.KernelIdeal.Launch
import proofs.«130254_j19593640804692_2_alg».proof.Proof.Gen.KernelIdeal.Skeleton
import proofs.«130254_j19593640804692_2_alg».proof.Proof.Gen.KernelIdeal.Points
import proofs.«130254_j19593640804692_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the pairwise region's windows, held whole at contents `V'`, are the region's arrays at any
    contents `Fa` that read `V'` at each window's array — the feature array split into its two half shares. -/
theorem arrays1_iff (c : Dev nD) (V' : (b : Ref sig .tc) → Buf (Elt F) ((c : Thread nD τ).loc b))
    (dat : Dat τ (Elt F) Unit ℕ (UR sig nD τ) ℕ cfg1 c) (hq0 : dat.q 0 = fullShare.left) (hq1 : dat.q 1 = fullShare.right)
    (Fa : (w : Fin cfg1.W) → Buf (Elt F) ((cfg1.win w).arr.view.loc (c.tc : Thread nD τ)))
    (h0 : Fa 0 = V' (Pipeline.arrRef spec1 0)) (h1 : Fa 1 = V' (Pipeline.arrRef spec1 1)) (h2 : Fa 2 = V' (Pipeline.arrRef spec1 2)) :
    (Pipeline.arrBufs (Ix := Unit) (Name := ℕ) (U := UR sig nD τ) (Lvl := ℕ) spec1 c V' : sProp 𝕄) ⊣⊢ dat.arrays Fa := by
  unfold Pipeline.arrBufs Dat.arrays
  rw [bigSep_W1, bigSep_eq_bigSepL_of_eq [main_v3, main_v4] (by decide) (by decide)]
  have s0 : dat.share 0 = fullShare.left := (if_neg (by decide)).trans hq0
  have s1 : dat.share 1 = fullShare.right := (if_neg (by decide)).trans hq1
  have s2 : dat.share 2 = fullShare := if_pos (by decide)
  have e0 : (cfg1.win 0).arr.view.set = Finset.univ := (arr_whole1 0).set_eq_univ
  have e2 : (cfg1.win 2).arr.view.set = Finset.univ := (arr_whole1 2).set_eq_univ
  rw [s0, s1, s2, e0, e2, h0, h1, h2]
  have hsh : (((c.tc : Thread nD τ).loc main_v3) ↦{fullShare} V' main_v3 : sProp 𝕄)
      ⊣⊢ iprop((((c.tc : Thread nD τ).loc main_v3) ↦{fullShare.left} V' main_v3) ∗ ((c.tc : Thread nD τ).loc main_v3) ↦{fullShare.right} V' main_v3) :=
    pointsTo_share (PosShare.mem_left_op_right fullShare)
  show (iprop((((c.tc : Thread nD τ).loc main_v3) ↦{fullShare} V' main_v3) ∗ (((c.tc : Thread nD τ).loc main_v4) ↦{fullShare} V' main_v4)) : sProp 𝕄) ⊣⊢ _
  exact ⟨(sep_mono hsh.1 .rfl).trans Idealize.SL.BI.sep_assoc, Idealize.SL.BI.sep_assoc'.trans (sep_mono hsh.2 .rfl)⟩

end Cert.KernelIdeal.Hand

end
-- ==== Proof.KI.Run.lean ====
/-
  The program's run, stretch by stretch: each host stretch applies its operations to the buffers it is handed; each
  region takes its arrays out of the core's buffers at its entry, runs its pipeline, and puts them back at its exit with
  the result array at what the write-backs leave. From any launch memory with zero counters every weakly fair execution
  terminates with every buffer the regions do not hide at the last boundary's contents `W5`; in particular the result
  buffer holds `W5` there and the two argument arrays hold what they held at launch.
-/
import proofs.«130254_j19593640804692_2_alg».proof.Proof.Gen.KernelIdeal.Launch
import proofs.«130254_j19593640804692_2_alg».proof.Proof.Gen.KernelIdeal.Skeleton
import proofs.«130254_j19593640804692_2_alg».proof.Proof.Gen.KernelIdeal.Points
import proofs.«130254_j19593640804692_2_alg».proof.Proof.KI.Fold
import proofs.«130254_j19593640804692_2_alg».proof.Proof.KI.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions -/

set_option backward.isDefEq.respectTransparency.types false in
/-- The matrix-product region: entered from every buffer at `W1`, left at `W2`. Its arrays are split out of the core's
    buffers and put back at the exit contents; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the pairwise region's exit each of its arrays holds what `W4` says: the feature array (both input windows')
    its entry contents, the result array what the write-backs leave. -/
theorem hF1_in (c : Dev nD) (w : Fin cfg1.W) (hw : (cfg1.win w).isOut = false) (hne : Pipeline.arrRef spec1 w ≠ main_v4) :
    (dat1 (V3 m ρ) c).arrAt w cfg1.N = V4 m ρ c (Pipeline.arrRef spec1 w) :=
  (((dat1 (V3 m ρ) c).arrAt_in w hw _).trans (A_eq1 (V3 m ρ) c w)).trans (W4_of_ne m ρ c _ hne).symm
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e.symm⟩)

set_option backward.isDefEq.respectTransparency.types false in
/-- The pairwise region: entered from every buffer at `W3`, left at `W4`. The feature array's full share is split
    between the two windows that read it at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (Ix := Unit) (Name := ℕ) (U := UR sig nD τ) (Lvl := ℕ) cfgs 1 winFacts₀1.arr_unscoped c (V3 m ρ c)]
      exact sep_mono (arrays1_iff c (V3 m ρ c) (pdats m ρ 1 c) rfl rfl ((pdats m ρ 1 c).arrAt · 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (Ix := Unit) (Name := ℕ) (U := UR sig nD τ) (Lvl := ℕ) cfgs 1 winFacts₀1.arr_unscoped c (V4 m ρ c)]
      refine sep_mono (arrays1_iff c (V4 m ρ c) (pdats m ρ 1 c) rfl rfl ((pdats m ρ 1 c).arrAt · cfg1.N)
        (hF1_in m ρ c 0 rfl (by decide)) (hF1_in m ρ c 1 rfl (by decide)) (W4_out m ρ c).symm).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds each unhidden buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the three buffers the claims name: the result at `W5`, the two arguments as launched. -/
theorem run_main : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W5_main_arg0 m ρ c),
     (h c _ (mem_uc main_arg1 (by decide))).trans (W5_main_arg1 m ρ c)⟩) (run_all m ρ)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.KernelIdeal.Hand

end
-- ==== Proof.KI.Value0.lean ====
/-
  What the matrix-product region leaves in its result array, on the extended reals, at any contents `V` of the core's
  buffers when the region is entered.

  The grid has one point and each window's block is its whole array, at block index (0, 0): an element of a block sits
  in the array at 0 · size + its own coordinate, that is at the same index.  So the two operand blocks are the two
  operand arrays, the one write-back writes the product of the two arrays over the whole result array, and the result
  array ends holding that product.
-/
import proofs.«130254_j19593640804692_2_alg».proof.Proof.KI.Region0
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The body's rectangles start at (0, 0). -/
theorem origin0 : (![0, 0] : Fin 2 → Nat) = fun _ => 0 := funext fun a => by fin_cases a <;> rfl

/-- Every window's block index is (0, 0) at every point of the grid. -/
theorem index0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is the left operand array. -/
theorem iblk0_0_eq (c : Dev nD) (t : Fin cfg0.N) : @Eq (S256x512.Idx → EReal) (iblk0 V c 0 t) (V c main_v0) := by
  obtain ⟨e0, e1, -⟩ := index0 t
  funext y
  unfold iblk0
  rw [View.read_apply]
  show V c main_v0 _ = V c main_v0 y
  congr 1
  funext a; apply Fin.ext
  match a with
  | ⟨0, _⟩ => show win0_0.index t (0 : Fin 2) * 256 + 1 * (y 0).val = (y 0).val; rw [e0]; omega
  | ⟨1, _⟩ => show win0_0.index t (1 : Fin 2) * 512 + 1 * (y 1).val = (y 1).val; rw [e1]; omega

/-- The right operand's block is the right operand array. -/
theorem iblk0_1_eq (c : Dev nD) (t : Fin cfg0.N) : @Eq (S512x2048.Idx → EReal) (iblk0 V c 1 t) (V c main_v1) := by
  obtain ⟨-, -, e0, e1, -⟩ := index0 t
  funext y
  unfold iblk0
  rw [View.read_apply]
  show V c main_v1 _ = V c main_v1 y
  congr 1
  funext a; apply Fin.ext
  match a with
  | ⟨0, _⟩ => show win0_1.index t (0 : Fin 2) * 512 + 1 * (y 0).val = (y 0).val; rw [e0]; omega
  | ⟨1, _⟩ => show win0_1.index t (1 : Fin 2) * 2048 + 1 * (y 1).val = (y 1).val; rw [e1]; omega

/-- The product of the two operand arrays, as the body forms it: what the result array ends holding. -/
abbrev G0 (c : Dev nD) : S256x2048.Idx → EReal := k0_pay1 (F := Ideal) (V c main_v0) (V c main_v1)

/-- What a point writes back is its block of the product array. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero origin0]
  simp only [View.ld_unit_zero (S := S256x512) origin0, View.ld_unit_zero (S := S512x2048) origin0]
  obtain ⟨-, -, -, -, e0, e1⟩ := index0 t
  funext j
  rw [View.read_apply]
  show k0_pay1 (F := Ideal) (iblk0 V c 0 t) (iblk0 V c 1 t) _ = k0_pay1 (F := Ideal) (V c main_v0) (V c main_v1) _
  rw [iblk0_0_eq, iblk0_1_eq]
  congr 1
  funext a; apply Fin.ext
  match a with
  | ⟨0, _⟩ => show (j 0).val = win0_2.index t (0 : Fin 2) * 256 + 1 * (j 0).val; rw [e0]; omega
  | ⟨1, _⟩ => show (j 1).val = win0_2.index t (1 : Fin 2) * 2048 + 1 * (j 1).val; rw [e1]; omega

/-- An index of the result array is in a point's block iff each coordinate is in the block's range on its axis. -/
theorem mem_blk0 (t : Fin cfg0.N) (i : S256x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v2).slice (win0_2.rect t)).set ↔ _
  rw [View.set_slice_whole, Rect.mem_set_unit]
  exact Iff.rfl

/-- The one point's block is the whole result array. -/
theorem cover0 (i : S256x2048.Idx) : ∃ t : Fin cfg0.N, (cfg0.win 2).flush t = true ∧ i ∈ ((cfg0.win 2).blk t).view.set := by
  refine ⟨t0_0, flush0_2 t0_0, ?_⟩
  rw [mem_blk0]
  obtain ⟨-, -, -, -, e0, e1⟩ := index0 t0_0
  have h0 : (i 0).val < 256 := (i 0).isLt
  have h1 : (i 1).val < 2048 := (i 1).isLt
  intro a
  match a with
  | ⟨0, _⟩ => show win0_2.index t0_0 (0 : Fin 2) * 256 ≤ (i 0).val ∧ (i 0).val < win0_2.index t0_0 (0 : Fin 2) * 256 + 256; rw [e0]; omega
  | ⟨1, _⟩ => show win0_2.index t0_0 (1 : Fin 2) * 2048 ≤ (i 1).val ∧ (i 1).val < win0_2.index t0_0 (1 : Fin 2) * 2048 + 2048; rw [e1]; omega

/-- The result array after the region is the product of the two operand arrays. -/
theorem final0 (c : Dev nD) : (dat0 V c).arrAt 2 cfg0.N = G0 V c :=
  (dat0 V c).arrAt_eq_of_cover 2 (G0 V c) (fun t _ => flushed0_eq V c t) cover0

end Cert.KernelIdeal.Hand

end
-- ==== Proof.Spec.lean ====
/-
  What the program computes, index by index, on the extended reals.

  From an activation matrix x [256, 512] and a projection T [512, 2048] the projected features are
  m[b, f, k] = Σ_c x[b, c] · T[c, 16·f + k]  (b < 256, f < 128, k < 16).  For every pair of rows (i, j) and every
  feature f the L1 distance over k is d(i, j, f) = Σ_k |m[i, f, k] − m[j, f, k]|, and the result at (i, f) is
  Σ_j exp(−d(i, j, f)) − 1.  Absolute value on the extended reals is max v (−v).
-/
import Idealize.ShloMosaic.PureOps.Ideal
import Idealize.ShloMosaic.Lib.ValueIdx

noncomputable section

open scoped BigOperators

namespace Cert.Pairwise

open Idealize.ShloMosaic Idealize.ShloMosaic.ValueIdx

/-- Column 16·f + k of the projection: the k-th kernel of feature f. -/
def col (f : Fin 128) (k : Fin 16) : Fin 2048 := ⟨f.val * 16 + k.val, by omega⟩

/-- The projected features m[b, f, k] = Σ_c x[b, c] · T[c, 16·f + k]. -/
def proj (x : (⟨2, ![256, 512]⟩ : Shape).Idx → EReal) (T : (⟨2, ![512, 2048]⟩ : Shape).Idx → EReal)
    (b : Fin 256) (f : Fin 128) (k : Fin 16) : EReal :=
  ∑ c : Fin 512, x (ix2 b c) * T (ix2 c (col f k))

/-- The L1 distance over the 16 kernels between row i of a and row j of b, at feature f. -/
def dist {n n' : Nat} (a : Fin n → Fin 128 → Fin 16 → EReal) (b : Fin n' → Fin 128 → Fin 16 → EReal)
    (i : Fin n) (j : Fin n') (f : Fin 128) : EReal :=
  ∑ k : Fin 16, max (a i f k - b j f k) (-(a i f k - b j f k))

/-- Σ_j exp(−d(i, j, f)) − 1 over the rows j of b: the result at (i, f). The literal one is kept as its f32 word. -/
def out {n n' : Nat} (a : Fin n → Fin 128 → Fin 16 → EReal) (b : Fin n' → Fin 128 → Fin 16 → EReal)
    (i : Fin n) (f : Fin 128) : EReal :=
  (∑ j : Fin n', Ideal.exp (-(dist a b i j f))) - Ideal.ofBits .f32 0x3F800000#32

/-- The whole result array [256, 128] as a function of the two argument arrays. -/
def Out (x : (⟨2, ![256, 512]⟩ : Shape).Idx → EReal) (T : (⟨2, ![512, 2048]⟩ : Shape).Idx → EReal) :
    (⟨2, ![256, 128]⟩ : Shape).Idx → EReal :=
  fun i => out (proj x T) (proj x T) (i 0) (i 1)

theorem Out_apply (x : (⟨2, ![256, 512]⟩ : Shape).Idx → EReal) (T : (⟨2, ![512, 2048]⟩ : Shape).Idx → EReal)
    (i : Fin 256) (f : Fin 128) : Out x T (ix2 i f) = out (proj x T) (proj x T) i f := rfl

end Cert.Pairwise

end
-- ==== Proof.LibCubeForms.lean ====
/-
  Rank-three forms read at an index, for any extents.

  A matrix `[a, b]` becomes a cube in two ways: with a trailing unit axis, `[a, b, 1]`, then repeated along
  the last axis, so that entry `(p, d, e)` is the matrix at `(p, d)`; or with a middle unit axis, `[a, 1, c]`,
  then repeated along the middle axis, so that entry `(p, d, e)` is the matrix at `(p, e)`.  Together the two
  give an outer product of rows.  A sum of a cube along its middle axis read at `(p, e)`, and along its last
  axis read at `(p, d)`, is the `Fin`-indexed sum over that coordinate.
-/
import Idealize.ShloMosaic.Lib.ValueIdx
import Idealize.ShloMosaic.Lib.Pipeline.Value
import Idealize.ShloMosaic.PureOps.Ideal.Laws

namespace Cert.CubeForms

open Idealize.ShloMosaic Idealize.ShloMosaic.ValueIdx

variable {α : Type}

/-- `[a, b]` cast to `[a, b, 1]` reads, at `(p, d, u)`, the matrix at `(p, d)`. -/
theorem shapeCast_ab_ab1_apply {a b : ℕ} (x : (⟨2, ![a, b]⟩ : Shape).Idx → α)
    (h : (⟨2, ![a, b]⟩ : Shape).ShapeCasts ⟨3, ![a, b, 1]⟩) (p : Fin a) (d : Fin b) (u : Fin 1) :
    shapeCast ⟨3, ![a, b, 1]⟩ x h (ix3 p d u) = x (ix2 p d) :=
  shapeCast_apply x h _ _ (by
    have hu : u.val = 0 := by omega
    rw [Shape.rowMajor_val_two, Shape.rowMajor_val_three]
    show p.val * b + d.val = (p.val * b + d.val) * 1 + u.val
    rw [hu, Nat.mul_one, Nat.add_zero])

/-- `[a, c]` cast to `[a, 1, c]` reads, at `(p, u, e)`, the matrix at `(p, e)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- `[a, b, 1]` repeated along the last axis to `[a, b, c]` reads, at `(p, d, e)`, the operand at `(p, d, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (d : Fin b) (e : Fin c) :
    broadcastTo ⟨3, ![a, b, c]⟩ v h (ix3 p d e) = v (ix3 p d (0 : Fin 1)) := by
  refine broadcastTo_apply v h (ix3 p d e) (ix3 p d (0 : Fin 1)) fun ax => ?_
  match ax with
  | ⟨0, _⟩ =>
    show p.val = if a = 1 then 0 else p.val
    split
    · have := p.isLt; omega
    · rfl
  | ⟨1, _⟩ =>
    show d.val = if b = 1 then 0 else d.val
    split
    · have := d.isLt; omega
    · rfl
  | ⟨2, _⟩ => rfl

/-- `[a, 1, c]` repeated along the middle axis to `[a, b, c]` reads, at `(p, d, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (d : Fin b) (e : Fin c) :
    broadcastTo ⟨3, ![a, b, c]⟩ v h (ix3 p d e) = v (ix3 p (0 : Fin 1) e) := by
  refine broadcastTo_apply v h (ix3 p d e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A float sum of a cube along its MIDDLE axis, at the ideal values, read at `(p, e)`: the sum over `d` of the cube
    at `(p, d, e)`. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (e : Fin c) :
    multiReduction .add [1] ⟨2, ![a, c]⟩ src acc h hφ hacc (ix2 p e) = ∑ d : Fin b, src (ix3 p d e) := by
  rw [Ideal.multiReduction_add_single]
  refine Finset.sum_congr rfl fun d _ => congrArg src (funext fun ax => Fin.ext ?_)
  match ax with
  | ⟨0, _⟩ => rfl
  | ⟨1, _⟩ => rfl
  | ⟨2, _⟩ => rfl

/-- A float sum of a cube along its LAST axis, at the ideal values, read at `(p, d)`: the sum over `e` of the cube at
    `(p, d, e)`. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (d : Fin b) :
    multiReduction .add [2] ⟨2, ![a, b]⟩ src acc h hφ hacc (ix2 p d) = ∑ e : Fin c, src (ix3 p d e) := by
  rw [Ideal.multiReduction_add_single]
  refine Finset.sum_congr rfl fun e _ => congrArg src (funext fun ax => Fin.ext ?_)
  match ax with
  | ⟨0, _⟩ => rfl
  | ⟨1, _⟩ => rfl
  | ⟨2, _⟩ => rfl

end Cert.CubeForms
-- ==== Proof.KernelPayload.lean ====
/-
  The two kernel bodies read at an index, on the extended reals.

  The first body stores the product of a [256, 512] block and a [512, 2048] block onto a zero accumulator: at (b, n)
  that is the inner product Σ_c x[b, c] · T[c, n].

  The second body loads a query block q [32, 128, 16] and the key array m [256, 128, 16].  For each k < 16 it forms the
  cube whose (p, f, j) entry is |q[p, f, k] − m[j, f, k]|: the k-th slice of q, a [32, 128] matrix, is repeated along a
  new last axis, the k-th slice of m, a [256, 128] matrix, is transposed to [128, 256] and repeated along a new first
  axis, and the two cubes are subtracted and the absolute value taken.  The sixteen cubes are added one after another
  onto a zero cube, in the order k = 0, 1, …, 15, so the (p, f, j) entry of the total is the L1 distance
  d(p, j, f) = Σ_k |q[p, f, k] − m[j, f, k]|.  The body then stores Σ_j exp(0 − d(p, j, f)) − 1 at (p, f).
-/
import proofs.«130254_j19593640804692_2_alg».proof.Proof.KI.Pay
import proofs.«130254_j19593640804692_2_alg».proof.Proof.Spec
import proofs.«130254_j19593640804692_2_alg».proof.Proof.LibCubeForms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pairwise.KVal

open Idealize.ShloMosaic Idealize.ShloMosaic.ValueIdx Cert.KernelIdeal Cert.KernelIdeal.Gen Cert.KernelIdeal.Hand Cert.CubeForms

/-! ## Three more rank-three layout forms read at an index, for any extents -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- `[a, b, 1]` cast to `[a, b]` reads, at `(p, d)`, the operand at `(p, d, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (d : Fin b) :
    shapeCast ⟨2, ![a, b]⟩ x h (ix2 p d) = x (ix3 p d (0 : Fin 1)) :=
  shapeCast_apply x h _ _ (by
    rw [Shape.rowMajor_val_three, Shape.rowMajor_val_two]
    show (p.val * b + d.val) * 1 + 0 = p.val * b + d.val
    rw [Nat.mul_one, Nat.add_zero])

/-- `[1, b, c]` repeated along the first axis to `[a, b, c]` reads, at `(p, d, e)`, the operand at `(0, d, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (d : Fin b) (e : Fin c) :
    broadcastTo ⟨3, ![a, b, c]⟩ v h (ix3 p d e) = v (ix3 (0 : Fin 1) d e) := by
  refine broadcastTo_apply v h (ix3 p d e) (ix3 (0 : Fin 1) d e) fun ax => ?_
  match ax with
  | ⟨0, _⟩ => rfl
  | ⟨1, _⟩ =>
    show d.val = if b = 1 then 0 else d.val
    split
    · have := d.isLt; omega
    · rfl
  | ⟨2, _⟩ =>
    show e.val = if c = 1 then 0 else e.val
    split
    · have := e.isLt; omega
    · rfl

end Layout

/-! ## The matrix product -/

section Matmul

/-- The product's left operand index at output `i` and contraction index `q`: row `i 0`, -/
theorem lhs_coord0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl
/-- column `q`; -/
theorem lhs_coord1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
/-- the right operand index: row `q`, -/
theorem rhs_coord0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
/-- column `i 1`. -/
theorem rhs_coord1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The matrix unit's product onto a zero accumulator, read at (b, n): the plain inner product of row b of x and
    column n of T. -/
theorem pay0_apply (v0 : Vec Ideal S256x512 .bf16) (v2 : Vec Ideal S512x2048 .bf16) (b : Fin 256) (n : Fin 2048) :
    k0_pay1 (F := Ideal) v0 v2 (ix2 b n) = ∑ c : Fin 512, v0 (ix2 b c) * v2 (ix2 c n) := by
  unfold k0_pay1
  simp only [matmul, shapeCast_self]
  rw [Ideal.matmul_constant_zero_apply,
    ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 b n)
      ((contrEquiv1 dot_S256x512_S512x2048_S256x2048_1_0_0_1_n_n 512 rfl rfl).symm k) = ix2 b k :=
    funext fun a => Fin.ext (by
      match a with
      | ⟨0, _⟩ => exact lhs_coord0 _ _
      | ⟨1, _⟩ => exact (lhs_coord1 _ _).trans hk)
  have er : dot_S256x512_S512x2048_S256x2048_1_0_0_1_n_n.rhsIdx (ix2 b n)
      ((contrEquiv1 dot_S256x512_S512x2048_S256x2048_1_0_0_1_n_n 512 rfl rfl).symm k) = ix2 k n :=
    funext fun a => Fin.ext (by
      match a with
      | ⟨0, _⟩ => exact (rhs_coord0 _ _).trans hk
      | ⟨1, _⟩ => exact rhs_coord1 _ _)
  rw [el, er]

end Matmul

/-! ## The pairwise body -/

section Pairwise

/-- The k-th absolute difference between query row p and key row j at feature f. -/
def term (v1 : FVec Ideal S32x128x16 .f32) (v3 : FVec Ideal S256x128x16 .f32) (p : Fin 32) (f : Fin 128) (j : Fin 256)
    (k : Fin 16) : EReal :=
  max (v1 (ix3 p f k) - v3 (ix3 j f k)) (-(v1 (ix3 p f k) - v3 (ix3 j f k)))

/-- One accumulation term, for any slice position k < 16: the k-th slice of the query block as a [32, 128] matrix
    repeated along a new last axis, minus the k-th slice of the key array as a [256, 128] matrix transposed and
    repeated along a new first axis, in absolute value, read at (p, f, j). -/
theorem step_apply (k : ℕ) (hk : k < 16) (v1 : FVec Ideal S32x128x16 .f32) (v3 : FVec Ideal S256x128x16 .f32)
    (h1 : S32x128x16.Slices ![0, 0, k] S32x128x1) (h3 : S256x128x16.Slices ![0, 0, k] S256x128x1)
    (c1 : S32x128x1.ShapeCasts S32x128) (c3 : S256x128x1.ShapeCasts S256x128) (c1' : S32x128.ShapeCasts S32x128x1)
    (ht : S256x128.Transposes [1, 0] S128x256) (c3' : S128x256.ShapeCasts S1x128x256)
    (b1 : S32x128x1.Broadcasts S32x128x256) (b3 : S1x128x256.Broadcasts S32x128x256)
    (p : Fin 32) (f : Fin 128) (j : Fin 256) :
    absf (subf
        (broadcastTo S32x128x256
          (shapeCast S32x128x1 (shapeCast S32x128 (extractStridedSlice S32x128x1 ![0, 0, k] v1 h1) c1) c1') b1)
        (broadcastTo S32x128x256
          (shapeCast S1x128x256
            (transpose S128x256 [1, 0] (shapeCast S256x128 (extractStridedSlice S256x128x1 ![0, 0, k] v3 h3) c3) ht) c3')
          b3))
      (ix3 p f j) = term v1 v3 p f j ⟨k, hk⟩ := by
  have e1 : broadcastTo S32x128x256
      (shapeCast S32x128x1 (shapeCast S32x128 (extractStridedSlice S32x128x1 ![0, 0, k] v1 h1) c1) c1') b1 (ix3 p f j)
      = v1 (ix3 p f ⟨k, hk⟩) :=
    (broadcastTo_ab1_abc_apply _ b1 p f j).trans <|
    (shapeCast_ab_ab1_apply _ c1' p f 0).trans <|
    (shapeCast_ab1_ab_apply _ c1 p f).trans <|
    slice3_axis2_apply k v1 h1 p f 0 ⟨k, hk⟩ rfl
  have e3 : broadcastTo S32x128x256
      (shapeCast S1x128x256
        (transpose S128x256 [1, 0] (shapeCast S256x128 (extractStridedSlice S256x128x1 ![0, 0, k] v3 h3) c3) ht) c3')
      b3 (ix3 p f j) = v3 (ix3 j f ⟨k, hk⟩) :=
    (broadcastTo_1bc_abc_apply _ b3 p f j).trans <|
    (shapeCast_ab_1ab_apply _ c3' 0 f j).trans <|
    (transpose_ix2_apply _ ht f j).trans <|
    (shapeCast_ab1_ab_apply _ c3 j f).trans <|
    slice3_axis2_apply k v3 h3 j f 0 ⟨k, hk⟩ rfl
  have hab : ∀ (A B : FVec Ideal S32x128x256 .f32) (i : S32x128x256.Idx),
      absf (subf A B) i = max (A i - B i) (-(A i - B i)) := fun _ _ _ => rfl
  rw [hab, e1, e3]
  rfl

/-- The two loads pass through identity casts. -/
theorem pay2_eq (v0 : Vec Ideal S32x128x16 .f32) : k1_pay2 (F := Ideal) v0 = v0 := shapeCast_self _ _
theorem pay3_eq (v2 : Vec Ideal S256x128x16 .f32) : k1_pay3 (F := Ideal) v2 = v2 := shapeCast_self _ _

/-- The running total after the first three terms, read at (p, f, j). -/
theorem pay4_apply (v0 : Vec Ideal S32x128x16 .f32) (v2 : Vec Ideal S256x128x16 .f32) (p : Fin 32) (f : Fin 128)
    (j : Fin 256) :
    k1_pay4 (F := Ideal) v0 v2 (ix3 p f j)
      = Ideal.ofBits .f32 0x00000000#32 + term v0 v2 p f j 0 + term v0 v2 p f j 1 + term v0 v2 p f j 2 := by
  unfold k1_pay4
  simp only [pay2_eq, pay3_eq, addf_apply, broadcast_apply, step_apply 0 (by decide), step_apply 1 (by decide),
    step_apply 2 (by decide)]
  rfl

/-- The fourth term. -/
theorem pay5_apply (v0 : Vec Ideal S32x128x16 .f32) (v2 : Vec Ideal S256x128x16 .f32) (p : Fin 32) (f : Fin 128)
    (j : Fin 256) : k1_pay5 (F := Ideal) v0 v2 (ix3 p f j) = term v0 v2 p f j 3 := by
  unfold k1_pay5
  simp only [pay2_eq, pay3_eq, step_apply 3 (by decide)]
  rfl

/-- Five more additions: the carried total plus the carried term, then the terms 4 to 7. -/
theorem pay6_apply (v1 : FVec Ideal S32x128x16 .f32) (v3 : FVec Ideal S256x128x16 .f32)
    (v40 v51 : FVec Ideal S32x128x256 .f32) (p : Fin 32) (f : Fin 128) (j : Fin 256) :
    k1_pay6 (F := Ideal) v1 v3 v40 v51 (ix3 p f j)
      = v40 (ix3 p f j) + v51 (ix3 p f j) + term v1 v3 p f j 4 + term v1 v3 p f j 5 + term v1 v3 p f j 6
        + term v1 v3 p f j 7 := by
  unfold k1_pay6
  simp only [addf_apply, step_apply 4 (by decide), step_apply 5 (by decide), step_apply 6 (by decide),
    step_apply 7 (by decide)]
  rfl

/-- The ninth term. -/
theorem pay7_apply (v1 : FVec Ideal S32x128x16 .f32) (v3 : FVec Ideal S256x128x16 .f32) (p : Fin 32) (f : Fin 128)
    (j : Fin 256) : k1_pay7 (F := Ideal) v1 v3 (ix3 p f j) = term v1 v3 p f j 8 := by
  unfold k1_pay7
  simp only [step_apply 8 (by decide)]
  rfl

/-- Five more additions: the carried total plus the carried term, then the terms 9 to 12. -/
theorem pay8_apply (v1 : FVec Ideal S32x128x16 .f32) (v3 : FVec Ideal S256x128x16 .f32)
    (v100 v111 : FVec Ideal S32x128x256 .f32) (p : Fin 32) (f : Fin 128) (j : Fin 256) :
    k1_pay8 (F := Ideal) v1 v3 v100 v111 (ix3 p f j)
      = v100 (ix3 p f j) + v111 (ix3 p f j) + term v1 v3 p f j 9 + term v1 v3 p f j 10 + term v1 v3 p f j 11
        + term v1 v3 p f j 12 := by
  unfold k1_pay8
  simp only [addf_apply, step_apply 9 (by decide), step_apply 10 (by decide), step_apply 11 (by decide),
    step_apply 12 (by decide)]
  rfl

/-- The fourteenth term. -/
theorem pay9_apply (v1 : FVec Ideal S32x128x16 .f32) (v3 : FVec Ideal S256x128x16 .f32) (p : Fin 32) (f : Fin 128)
    (j : Fin 256) : k1_pay9 (F := Ideal) v1 v3 (ix3 p f j) = term v1 v3 p f j 13 := by
  unfold k1_pay9
  simp only [step_apply 13 (by decide)]
  rfl

/-- The closing steps: the carried total plus the carried term, the last two terms, then the exponential of zero
    minus the total, summed over the key rows j, minus the literal one. -/
theorem pay1_apply (v1 : FVec Ideal S32x128x16 .f32) (v3 : FVec Ideal S256x128x16 .f32)
    (v160 v171 : FVec Ideal S32x128x256 .f32) (p : Fin 32) (f : Fin 128) :
    k1_pay1 (F := Ideal) v1 v3 v160 v171 (ix2 p f)
      = (∑ j : Fin 256, Ideal.exp (Ideal.ofBits .f32 0x00000000#32
            - (v160 (ix3 p f j) + v171 (ix3 p f j) + term v1 v3 p f j 14 + term v1 v3 p f j 15)))
        - Ideal.ofBits .f32 0x3F800000#32 := by
  unfold k1_pay1
  refine congrArg (· - Ideal.ofBits .f32 0x3F800000#32) ?_
  refine (sum_last_apply _ 0x00000000#32 _ _ _ p f).trans ?_
  refine Finset.sum_congr rfl fun j _ => ?_
  refine congrArg (fun t => Ideal.exp (Ideal.ofBits .f32 0x00000000#32 - t)) ?_
  simp only [addf_apply, step_apply 14 (by decide), step_apply 15 (by decide)]
  rfl

/-- Sixteen additions onto zero, in order, are the sum over `Fin 16`. -/
theorem sum16 {M : Type*} [AddCommMonoid M] (d : Fin 16 → M) :
    0 + d 0 + d 1 + d 2 + d 3 + d 4 + d 5 + d 6 + d 7 + d 8 + d 9 + d 10 + d 11 + d 12 + d 13 + d 14 + d 15
      = ∑ k : Fin 16, d k := by
  simp only [Fin.sum_univ_castSucc, Fin.sum_univ_zero]
  rfl

/-- The pairwise body's stored value read at (p, f). -/
theorem body1_apply (v0 : Vec Ideal S32x128x16 .f32) (v2 : Vec Ideal S256x128x16 .f32) (p : Fin 32) (f : Fin 128) :
    body1 (F := Ideal) v0 v2 (ix2 p f)
      = Cert.Pairwise.out (fun i f k => v0 (ix3 i f k)) (fun j f k => v2 (ix3 j f k)) p f := by
  unfold body1
  rw [pay1_apply]
  simp only [pay2_eq, pay3_eq]
  unfold Cert.Pairwise.out
  refine congrArg (· - Ideal.ofBits .f32 0x3F800000#32) (Finset.sum_congr rfl fun j _ => ?_)
  rw [pay8_apply, pay9_apply, pay6_apply, pay7_apply, pay4_apply, pay5_apply, Ideal.ofBits_zero_f32, zero_sub]
  exact congrArg (fun t => Ideal.exp (-t)) (sum16 (term v0 v2 p f j))

end Pairwise

end Cert.Pairwise.KVal

end
-- ==== Proof.KI.Value1.lean ====
/-
  What the pairwise region leaves in its result array, on the extended reals, at any contents `V` of the core's
  buffers when the region is entered.

  Write M[b, f, k] for the feature array [256, 128, 16] the region reads.  The grid has eight points.  At point t the
  query window's block index is (t, 0, 0) with blocks of 32 rows, so its element (p, f, k) is M[32·t + p, f, k]; the key
  window's block is the whole array, its element (j, f, k) is M[j, f, k]; the result window's block index is (t, 0), so
  its element (p, f) is the result array's (32·t + p, f).  The body stores, at (p, f) of its block, the specification's
  `out` of the query block's rows against the key array's rows.  That value reads the query block only at row p, which
  is row 32·t + p of M, so it is `out M M (32·t + p) f`: every point writes its block of ONE array,
  (r, f) ↦ `out M M r f`.  Row r lies in the block of point r / 32, so the eight blocks cover the result array, which
  therefore ends holding that array.
-/
import proofs.«130254_j19593640804692_2_alg».proof.Proof.KI.Region1
import proofs.«130254_j19593640804692_2_alg».proof.Proof.Spec
import proofs.«130254_j19593640804692_2_alg».proof.Proof.KernelPayload
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The body's rectangles start at the origin. -/
theorem origin1_2 : (![0, 0] : Fin 2 → Nat) = fun _ => 0 := funext fun a => by fin_cases a <;> rfl
theorem origin1_3 : (![0, 0, 0] : Fin 3 → Nat) = fun _ => 0 := funext fun a => by fin_cases a <;> rfl

/-- The block indices at point t: (t, 0, 0) for the query window, (0, 0, 0) for the key window, (t, 0) for the result. -/
theorem index1 : ∀ t : Fin cfg1.N, win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- The query block at point t, at (p, f, k), is the feature array at row r = 32·t + p. -/
theorem iblk1_0_apply (c : Dev nD) (t : Fin cfg1.N) (p : Fin 32) (f : Fin 128) (k : Fin 16) (r : Fin 256)
    (hr : r.val = 32 * t.val + p.val) :
    (iblk1 V c 0 t : S32x128x16.Idx → EReal) (ix3 p f k) = (V c main_v3 : S256x128x16.Idx → EReal) (ix3 r f k) := by
  obtain ⟨e0, e1, e2, -⟩ := index1 t
  unfold iblk1
  rw [View.read_apply]
  show V c main_v3 _ = V c main_v3 _
  congr 1
  funext a; apply Fin.ext
  match a with
  | ⟨0, _⟩ => show win1_0.index t (0 : Fin 3) * 32 + 1 * p.val = r.val; rw [e0, hr]; omega
  | ⟨1, _⟩ => show win1_0.index t (1 : Fin 3) * 128 + 1 * f.val = f.val; rw [e1]; omega
  | ⟨2, _⟩ => show win1_0.index t (2 : Fin 3) * 16 + 1 * k.val = k.val; rw [e2]; omega

/-- The key block at every point is the feature array. -/
theorem iblk1_1_eq (c : Dev nD) (t : Fin cfg1.N) : @Eq (S256x128x16.Idx → EReal) (iblk1 V c 1 t) (V c main_v3) := by
  obtain ⟨-, -, -, e0, e1, e2, -⟩ := index1 t
  funext y
  unfold iblk1
  rw [View.read_apply]
  show V c main_v3 _ = V c main_v3 y
  congr 1
  funext a; apply Fin.ext
  match a with
  | ⟨0, _⟩ => show win1_1.index t (0 : Fin 3) * 256 + 1 * (y 0).val = (y 0).val; rw [e0]; omega
  | ⟨1, _⟩ => show win1_1.index t (1 : Fin 3) * 128 + 1 * (y 1).val = (y 1).val; rw [e1]; omega
  | ⟨2, _⟩ => show win1_1.index t (2 : Fin 3) * 16 + 1 * (y 2).val = (y 2).val; rw [e2]; omega

/-- The specification's result at (p, f) reads the first family only at row p: if that row is row r of M and the second
    family is M, the result is M's own at (r, f). -/
theorem out_rows (A : Fin 32 → Fin 128 → Fin 16 → EReal) (B M : Fin 256 → Fin 128 → Fin 16 → EReal)
    (p : Fin 32) (r : Fin 256) (f : Fin 128) (hA : ∀ k, A p f k = M r f k) (hB : ∀ j k, B j f k = M j f k) :
    Cert.Pairwise.out A B p f = Cert.Pairwise.out M M r f := by
  unfold Cert.Pairwise.out Cert.Pairwise.dist
  simp only [hA, hB]

/-- What the body stores at y = (p, f) of its block, from a query block whose rows are rows 32·t + p of M and a key
    block that is M, is `out M M` at i = (32·t + p, f). -/
theorem body1_row (B0 : Vec Ideal S32x128x16 .f32) (B1 : Vec Ideal S256x128x16 .f32) (M : Fin 256 → Fin 128 → Fin 16 → EReal)
    (y : S32x128.Idx) (i : S256x128.Idx) (t : Nat)
    (h0 : ∀ (p : Fin 32) (f : Fin 128) (k : Fin 16) (r : Fin 256), r.val = 32 * t + p.val → B0 (ix3 p f k) = M r f k)
    (h1 : ∀ (j : Fin 256) (f : Fin 128) (k : Fin 16), B1 (ix3 j f k) = M j f k)
    (hi0 : (i 0).val = 32 * t + (y 0).val) (hi1 : (i 1).val = (y 1).val) :
    body1 (F := Ideal) B0 B1 y = Cert.Pairwise.out M M (i 0) (i 1) := by
  have hf : @Eq (Fin 128) (y 1) (i 1) := Fin.ext hi1.symm
  calc body1 (F := Ideal) B0 B1 y
      = body1 (F := Ideal) B0 B1 (ix2 (n0 := 32) (n1 := 128) (y 0) (y 1)) := congrArg _ (eq_ix2 y)
    _ = Cert.Pairwise.out (fun i f k => B0 (ix3 i f k)) (fun j f k => B1 (ix3 j f k)) (y 0) (y 1) :=
        Cert.Pairwise.KVal.body1_apply B0 B1 (y 0) (y 1)
    _ = Cert.Pairwise.out M M (i 0) (y 1) :=
        out_rows _ _ M (y 0) (i 0) (y 1) (fun k => h0 (y 0) (y 1) k (i 0) hi0) (fun j k => h1 j (y 1) k)
    _ = Cert.Pairwise.out M M (i 0) (i 1) := congrArg (Cert.Pairwise.out M M (i 0)) hf

/-- The feature array the region reads, as a family M[b, f, k]. -/
abbrev M1 (c : Dev nD) : Fin 256 → Fin 128 → Fin 16 → EReal :=
  fun b f k => (V c main_v3 : S256x128x16.Idx → EReal) (ix3 b f k)

/-- (r, f) ↦ `out M M r f`: what the result array ends holding. -/
abbrev G1 (c : Dev nD) : S256x128.Idx → EReal := fun i => Cert.Pairwise.out (M1 V c) (M1 V c) (i 0) (i 1)

/-- What point t writes back is its block of that array. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero origin1_2]
  simp only [View.ld_unit_zero (S := S32x128x16) origin1_3, View.ld_unit_zero (S := S256x128x16) origin1_3]
  obtain ⟨-, -, -, -, -, -, e0, e1⟩ := index1 t
  funext j
  rw [View.read_apply]
  show body1 (F := Ideal) (iblk1 V c 0 t) (iblk1 V c 1 t) _ = G1 V c _
  refine body1_row (iblk1 V c 0 t) (iblk1 V c 1 t) (M1 V c) _ _ t.val
    (fun p f k r hr => iblk1_0_apply V c t p f k r hr) (fun j f k => congrFun (iblk1_1_eq V c t) (ix3 j f k)) ?_ ?_
  · show win1_2.index t (0 : Fin 2) * 32 + 1 * (j 0).val = 32 * t.val + (j 0).val; rw [e0]; omega
  · show win1_2.index t (1 : Fin 2) * 128 + 1 * (j 1).val = (j 1).val; rw [e1]; omega

/-- An index of the result array is in a point's block iff each coordinate is in the block's range on its axis. -/
theorem mem_blk1 (t : Fin cfg1.N) (i : S256x128.Idx) :
    i ∈ ((cfg1.win 2).blk t).view.set ↔ ∀ a : Fin 2, win1_2.index t a * S32x128.size a ≤ (i a).val ∧ (i a).val < win1_2.index t a * S32x128.size a + S32x128.size a := by
  show i ∈ ((View.whole main_v4).slice (win1_2.rect t)).set ↔ _
  rw [View.set_slice_whole, Rect.mem_set_unit]
  exact Iff.rfl

/-- Row r of the result array lies in the block of point r / 32, which writes back. -/
theorem cover1 (i : S256x128.Idx) : ∃ t : Fin cfg1.N, (cfg1.win 2).flush t = true ∧ i ∈ ((cfg1.win 2).blk t).view.set := by
  have hN : cfg1.N = 8 := N_1
  have h0 : (i 0).val < 256 := (i 0).isLt
  have h1 : (i 1).val < 128 := (i 1).isLt
  let t : Fin cfg1.N := ⟨(i 0).val / 32, by omega⟩
  refine ⟨t, flush1_2 t, ?_⟩
  rw [mem_blk1]
  obtain ⟨-, -, -, -, -, -, e0, e1⟩ := index1 t
  have ht : t.val = (i 0).val / 32 := rfl
  intro a
  match a with
  | ⟨0, _⟩ => show win1_2.index t (0 : Fin 2) * 32 ≤ (i 0).val ∧ (i 0).val < win1_2.index t (0 : Fin 2) * 32 + 32; rw [e0, ht]; omega
  | ⟨1, _⟩ => show win1_2.index t (1 : Fin 2) * 128 ≤ (i 1).val ∧ (i 1).val < win1_2.index t (1 : Fin 2) * 128 + 128; rw [e1]; omega

/-- The result array after the region is (r, f) ↦ `out M M r f`. -/
theorem final1 (c : Dev nD) : (dat1 V c).arrAt 2 cfg1.N = G1 V c :=
  (dat1 V c).arrAt_eq_of_cover 2 (G1 V c) (fun t _ => flushed1_eq V c t) cover1

end Cert.KernelIdeal.Hand

end
-- ==== Proof.KI.Value.lean ====
/-
  The array the program leaves in its result buffer, on the extended reals, as a function of the two argument arrays
  x [256, 512] and T [512, 2048].

  The two conversions are the identity on the extended reals, so the matrix-product region is entered with x and T and
  leaves their product, (b, n) ↦ Σ_c x[b, c] · T[c, n], in its result array.  The reshape regroups each row of 2048
  columns into 128 features of 16 kernels, row-major: its element (b, f, k) is the product's element (b, 16·f + k),
  because (b·128 + f)·16 + k = b·2048 + (16·f + k).  That is the specification's projected feature m[b, f, k].  The
  pairwise region then leaves (r, f) ↦ `out m m r f` in its result array, which is the specification's `Out x T`, and the
  closing concatenation joins x and that array along the columns.
-/
import proofs.«130254_j19593640804692_2_alg».proof.Proof.KI.Fold
import proofs.«130254_j19593640804692_2_alg».proof.Proof.KI.Value0
import proofs.«130254_j19593640804692_2_alg».proof.Proof.KI.Value1
import proofs.«130254_j19593640804692_2_alg».proof.Proof.Spec
import proofs.«130254_j19593640804692_2_alg».proof.Proof.KernelPayload
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-! ## The host stretches, read -/

/-- The closing concatenation joins what the first argument's buffer and the pairwise region's result array hold. -/
theorem W5_out (c : Dev nD) :
    W5 (F := Ideal) m ρ c (Proc.devRef .tc main_v5)
      = concatenate S256x640 1 [⟨S256x512, W4 (F := Ideal) m ρ c (Proc.devRef .tc main_arg0)⟩, ⟨S256x128, W4 (F := Ideal) m ρ c (Proc.devRef .tc main_v4)⟩] concatenates_S256x512_S256x128_S256x640_d1 := by
  show StableHlo.after hostOps2 _ (Proc.devRef .tc main_v5) = _
  after_results

/-- The first argument's buffer is never written before the concatenation. -/
theorem W4_arg0 (c : Dev nD) : W4 (F := Ideal) m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keep c _ main_arg0 (by decide)
    _ = W1 m ρ c (Proc.devRef .tc main_arg0) := W2_of_ne m ρ c main_arg0 (by decide)
    _ = W0 m ρ c (Proc.devRef .tc main_arg0) := hostOps0_keep c _ main_arg0 (by decide) (by decide)
    _ = m ((c : Thread nD τ).loc main_arg0) := rfl

/-- On the extended reals the conversion of x is x, -/
theorem V1_v0 (c : Dev nD) : @Eq (S256x512.Idx → EReal) (V1 (F := Ideal) m ρ c main_v0) (m ((c : Thread nD τ).loc main_arg0)) := by
  show StableHlo.after hostOps0 _ (Proc.devRef .tc main_v0) = _
  after_results
  rfl

/-- and the conversion of T is T. -/
theorem V1_v1 (c : Dev nD) : @Eq (S512x2048.Idx → EReal) (V1 (F := Ideal) m ρ c main_v1) (m ((c : Thread nD τ).loc main_arg1)) := by
  show StableHlo.after hostOps0 _ (Proc.devRef .tc main_v1) = _
  after_results
  rfl

/-- The feature array is the matrix-product region's result array, regrouped. -/
theorem V3_v3 (c : Dev nD) : @Eq (S256x128x16.Idx → EReal) (V3 (F := Ideal) m ρ c main_v3)
    (shapeCast S256x128x16 (W2 (F := Ideal) m ρ c (Proc.devRef .tc main_v2) : S256x2048.Idx → EReal) shapeCasts_S256x2048_S256x128x16) := by
  show StableHlo.after hostOps1 _ (Proc.devRef .tc main_v3) = _
  after_results
  rfl

/-! ## The two regions' result arrays as functions of x and T -/

/-- The matrix-product region leaves the product of x and T. -/
theorem W2_v2 (c : Dev nD) : @Eq (S256x2048.Idx → EReal) (W2 (F := Ideal) m ρ c (Proc.devRef .tc main_v2))
    (k0_pay1 (F := Ideal) (m ((c : Thread nD τ).loc main_arg0)) (m ((c : Thread nD τ).loc main_arg1))) := by
  refine ((W2_arr m ρ c 2).trans (final0 (V1 m ρ) c)).trans ?_
  show k0_pay1 (F := Ideal) (V1 m ρ c main_v0) (V1 m ρ c main_v1) = _
  rw [V1_v0, V1_v1]

/-- The feature array at (b, f, k) is the projected feature Σ_c x[b, c] · T[c, 16·f + k]: the regrouping reads the
    product at the same row-major position, (b·128 + f)·16 + k = b·2048 + (16·f + k). -/
theorem feat_eq (c : Dev nD) (b : Fin 256) (f : Fin 128) (k : Fin 16) :
    (V3 (F := Ideal) m ρ c main_v3 : S256x128x16.Idx → EReal) (ix3 b f k)
      = Cert.Pairwise.proj (m ((c : Thread nD τ).loc main_arg0)) (m ((c : Thread nD τ).loc main_arg1)) b f k := by
  refine (congrFun (V3_v3 m ρ c) (ix3 b f k)).trans ?_
  refine (shapeCast_apply _ shapeCasts_S256x2048_S256x128x16 (ix3 b f k) (ix2 b (Cert.Pairwise.col f k)) ?_).trans ?_
  · rewrite [Shape.rowMajor_val_two, Shape.rowMajor_val_three]
    show b.val * 2048 + (f.val * 16 + k.val) = (b.val * 128 + f.val) * 16 + k.val
    omega
  · refine (congrFun (W2_v2 m ρ c) _).trans ?_
    exact Cert.Pairwise.KVal.pay0_apply _ _ b (Cert.Pairwise.col f k)

/-- The pairwise region leaves the specification's result array. -/
theorem W4_v4 (c : Dev nD) : @Eq (S256x128.Idx → EReal) (W4 (F := Ideal) m ρ c (Proc.devRef .tc main_v4))
    (Cert.Pairwise.Out (m ((c : Thread nD τ).loc main_arg0)) (m ((c : Thread nD τ).loc main_arg1))) := by
  refine ((W4_out m ρ c).trans (final1 (V3 m ρ) c)).trans ?_
  have hM : M1 (V3 m ρ) c = Cert.Pairwise.proj (m ((c : Thread nD τ).loc main_arg0)) (m ((c : Thread nD τ).loc main_arg1)) :=
    funext fun b => funext fun f => funext fun k => feat_eq m ρ c b f k
  funext i
  show Cert.Pairwise.out (M1 (V3 m ρ) c) (M1 (V3 m ρ) c) (i 0) (i 1) = _
  rw [hM]
  rfl

/-! ## The result buffer -/

/-- The program's result buffer ends holding x joined along the columns with the specification's result array. -/
theorem W5_value (c : Dev nD) :
    W5 (F := Ideal) m ρ c (Proc.devRef .tc main_v5)
      = concatenate S256x640 1 [⟨S256x512, m ((c : Thread nD τ).loc main_arg0)⟩, ⟨S256x128, Cert.Pairwise.Out (m ((c : Thread nD τ).loc main_arg0)) (m ((c : Thread nD τ).loc main_arg1))⟩] concatenates_S256x512_S256x128_S256x640_d1 := by
  rw [W5_out, W4_arg0, W4_v4]

end Cert.KernelIdeal.Hand

end
-- ==== Proof.RefValue.lean ====
import proofs.«130254_j19593640804692_2_alg».proof.Proof.Gen.ReferenceIdeal.Read
import proofs.«130254_j19593640804692_2_alg».proof.Proof.Spec

/-
  The reference program computes the specification.

  On the extended reals the reference forms m = x · T as a [256, 2048] array and regroups each row of 2048 columns
  into 128 features of 16 kernels, row-major: column 16·f + k becomes (f, k).  It lays m out twice over a
  [256, 256, 128, 16] array — once constant along the leading axis, P[a, b, f, k] = m[b, f, k], once constant along the
  second, Q[a, b, f, k] = m[a, f, k] —, takes |P − Q| = max (P − Q) (−(P − Q)), sums over k from 0, negates,
  exponentiates, sums over the leading axis a from 0, and subtracts one.  At (b, f) this is

      Σ_a exp(−Σ_k |m[b, f, k] − m[a, f, k]|) − 1,

  which is the specification's `out` at (i, f) = (b, f) with the summed row j = a: the minuend is the row the result
  is indexed by, the subtrahend the row summed over, as in the specification.  The final array joins x and this
  [256, 128] array along the columns; that step is carried along unread.
-/

noncomputable section

open scoped BigOperators

namespace Cert.Pairwise.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each stage reads its operand -/

/-- The sum over the leading axis, at (b, f), reads its operand at (a, b, f) for the summed a. -/
theorem idx_sum_rows (b : Fin 256) (f : Fin 128) (a : Fin 256) : idx_main_v11 (ix2 b f) a = ix3 a b f :=
  funext fun d => Fin.ext (by match d with | ⟨0, _⟩ => rfl | ⟨1, _⟩ => rfl | ⟨2, _⟩ => rfl)

/-- The sum over the last axis, at (a, b, f), reads its operand at (a, b, f, k) for the summed k. -/
theorem idx_sum_kernels (a b : Fin 256) (f : Fin 128) (k : Fin 16) : idx_main_v8 (ix3 a b f) k = ix4 a b f k :=
  funext fun d => Fin.ext (by match d with | ⟨0, _⟩ => rfl | ⟨1, _⟩ => rfl | ⟨2, _⟩ => rfl | ⟨3, _⟩ => rfl)

/-- The layout that is constant along the leading axis reads m at (b, f, k): P[a, b, f, k] = m[b, f, k]. -/
theorem idx_minuend (a b : Fin 256) (f : Fin 128) (k : Fin 16) : idx_main_v2 (idx_main_v4 (ix4 a b f k)) = ix3 b f k :=
  funext fun d => Fin.ext (by match d with | ⟨0, _⟩ => rfl | ⟨1, _⟩ => rfl | ⟨2, _⟩ => rfl)

/-- The layout that is constant along the second axis reads m at (a, f, k): Q[a, b, f, k] = m[a, f, k]. -/
theorem idx_subtrahend (a b : Fin 256) (f : Fin 128) (k : Fin 16) : idx_main_v3 (idx_main_v5 (ix4 a b f k)) = ix3 a f k :=
  funext fun d => Fin.ext (by match d with | ⟨0, _⟩ => rfl | ⟨1, _⟩ => rfl | ⟨2, _⟩ => rfl)

/-- Regrouping a row of 2048 columns into 128 × 16, row-major: the flat position of (b, f, k) is
    (b·128 + f)·16 + k = b·2048 + (16·f + k) with 16·f + k < 2048, so it is row b, column 16·f + k. -/
theorem idx_regroup (b : Fin 256) (f : Fin 128) (k : Fin 16) : idx_main_v1 (ix3 b f k) = ix2 b (Cert.Pairwise.col f k) :=
  funext fun d => Fin.ext (by
    have hb := b.isLt; have hf := f.isLt; have hk := k.isLt
    match d with
    | ⟨0, _⟩ => show ((b.val * 128 + f.val) * 16 + k.val) / 2048 = b.val; omega
    | ⟨1, _⟩ => show ((b.val * 128 + f.val) * 16 + k.val) % 2048 = f.val * 16 + k.val; omega)

/-- The product x · T at (b, j) reads x at (b, c) for the contracted c. -/
theorem idx_dot_left (b : Fin 256) (j : Fin 2048) (c : Fin 512) : lidx_main_v0 (ix2 b j) c = ix2 b c :=
  funext fun d => Fin.ext (by match d with | ⟨0, _⟩ => rfl | ⟨1, _⟩ => rfl)

/-- The product x · T at (b, j) reads T at (c, j) for the contracted c. -/
theorem idx_dot_right (b : Fin 256) (j : Fin 2048) (c : Fin 512) : ridx_main_v0 (ix2 b j) c = ix2 c j :=
  funext fun d => Fin.ext (by match d with | ⟨0, _⟩ => rfl | ⟨1, _⟩ => rfl)

/-! ## The stages are the specification -/

/-- The regrouped product is the projected features: m[b, f, k] = Σ_c x[b, c] · T[c, 16·f + k]. -/
theorem proj_eq (x : (⟨S256x512, .f32⟩ : BufTy).Contents (Elt Ideal)) (T : (⟨S512x2048, .f32⟩ : BufTy).Contents (Elt Ideal))
    (b : Fin 256) (f : Fin 128) (k : Fin 16) :
    val_main_v1 (F := Ideal) x T (ix3 b f k) = Cert.Pairwise.proj x T b f k := by
  rw [val_main_v1_apply, idx_regroup, val_main_v0_apply]
  simp only [idx_dot_left, idx_dot_right]
  rfl

/-- The [256, 128] array before the join, at (b, f): the two sums start from the zero word, which is 0, so it is
    Σ_a exp(−Σ_k max (m[b,f,k] − m[a,f,k]) (−(m[b,f,k] − m[a,f,k]))) minus the word of one — the specification's `out`
    at row b with a the summed row. -/
theorem stage_apply (x : (⟨S256x512, .f32⟩ : BufTy).Contents (Elt Ideal)) (T : (⟨S512x2048, .f32⟩ : BufTy).Contents (Elt Ideal))
    (b : Fin 256) (f : Fin 128) :
    val_main_v13 (F := Ideal) x T (ix2 b f) = Cert.Pairwise.out (Cert.Pairwise.proj x T) (Cert.Pairwise.proj x T) b f := by
  rw [val_main_v13_apply, val_main_v11_apply, val_main_v12_apply, val_main_cst_1_apply, val_main_cst_0_apply]
  simp only [idx_sum_rows, val_main_v10_apply, val_main_v9_apply, val_main_v8_apply, val_main_cst_apply, idx_sum_kernels,
    val_main_v7_apply, val_main_v6_apply, val_main_v4_apply, val_main_v5_apply, val_main_v2_apply, val_main_v3_apply,
    idx_minuend, idx_subtrahend, proj_eq, Ideal.subf_def, Ideal.hostUnary_exp_def, Ideal.hostNegf_def, Ideal.negf_def,
    Ideal.hostAbsf_def, Ideal.absf_def, Ideal.ofBits_def, Ideal.ofBits_zero_f32, zero_add]
  rfl

/-- The [256, 128] array before the join is the specification's result array. -/
theorem stage_eq (x : (⟨S256x512, .f32⟩ : BufTy).Contents (Elt Ideal)) (T : (⟨S512x2048, .f32⟩ : BufTy).Contents (Elt Ideal)) :
    val_main_v13 (F := Ideal) x T = Cert.Pairwise.Out x T := by
  funext i
  have hi : i = ix2 (n0 := 256) (n1 := 128) (i 0) (i 1) := eq_ix2 i
  calc val_main_v13 (F := Ideal) x T i
      = val_main_v13 (F := Ideal) x T (ix2 (n0 := 256) (n1 := 128) (i 0) (i 1)) := congrArg _ hi
    _ = Cert.Pairwise.out (Cert.Pairwise.proj x T) (Cert.Pairwise.proj x T) (i 0) (i 1) := stage_apply x T (i 0) (i 1)
    _ = Cert.Pairwise.Out x T i := rfl

/-- The reference's result: x joined along the columns with the specification's result array. -/
theorem result_eq (x : (⟨S256x512, .f32⟩ : BufTy).Contents (Elt Ideal)) (T : (⟨S512x2048, .f32⟩ : BufTy).Contents (Elt Ideal)) :
    val_main_v14 (F := Ideal) x T
      = concatenate S256x640 1 [⟨S256x512, x⟩, ⟨S256x128, Cert.Pairwise.Out x T⟩] concatenates_S256x512_S256x128_S256x640_d1 :=
  congrArg (fun v : (⟨S256x128, .f32⟩ : BufTy).Contents (Elt Ideal) =>
    concatenate S256x640 1 [⟨S256x512, x⟩, ⟨S256x128, v⟩] concatenates_S256x512_S256x128_S256x640_d1) (stage_eq x T)

/-! ## The run, at the specification -/

/-- On the extended reals, from any memory with zero counters, every weakly fair execution of the reference
    terminates with its result at x joined with `Out x T` along the columns, and the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = concatenate S256x640 1 [⟨S256x512, m ((c.tc : Thread nD τ).loc main_arg0)⟩, ⟨S256x128, Cert.Pairwise.Out (m ((c.tc : Thread nD τ).loc main_arg0)) (m ((c.tc : Thread nD τ).loc main_arg1))⟩] concatenates_S256x512_S256x128_S256x640_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v14_eq _ _).trans (result_eq _ _)), (h c).2⟩)
    (Cert.ReferenceIdeal.Value.run (F := Ideal) m ρ)

end Cert.Pairwise.Ref

end
-- ==== Proof.lean ====
/-
  The certificate's five claims.

  The kernel program converts its two arguments to bf16, multiplies them in one call, reshapes the product to
  [256, 128, 16], computes in a second call, for every row i and feature f, Σ_j exp(−Σ_k |m[i,f,k] − m[j,f,k]|) − 1 over
  all rows j, and joins the first argument and that result side by side. The reference computes the same product, the
  same distances by broadcasting, and the same sums by reductions. Read on the extended reals (a change of format the
  identity, every operation exact) both are one function of the two arguments, index by index: the sums differ only in
  their grouping and order, and addition on the extended reals is commutative and associative, so no finiteness of
  the inputs is used.

  Frames: each program runs to the end, faults nowhere and leaves its arguments unchanged — the kernel programs by
  their run stretch by stretch (host operations, the two pipeline regions, the feature array shared by the second
  region's two input windows at half shares), the reference by its run as a list of host operations. The idealized
  kernel is the kernel's own text read at the extended reals: nothing was rewritten, so that claim is trivial.
-/
import proofs.«130254_j19593640804692_2_alg».proof.Defs
import proofs.«130254_j19593640804692_2_alg».proof.Proof.Gen.Kernel
import proofs.«130254_j19593640804692_2_alg».proof.Proof.Gen.KernelIdeal
import proofs.«130254_j19593640804692_2_alg».proof.Proof.Gen.ReferenceIdeal
import proofs.«130254_j19593640804692_2_alg».proof.Proof.Gen.Pre_finite_inputs
import proofs.«130254_j19593640804692_2_alg».proof.Proof.K.Run
import proofs.«130254_j19593640804692_2_alg».proof.Proof.KI.Run
import proofs.«130254_j19593640804692_2_alg».proof.Proof.KI.Value
import proofs.«130254_j19593640804692_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.Pairwise.Ref.run m ρ)

/-- Both programs, from memories that agree on the arguments, end with the first argument and the pairwise result
    side by side: one array. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Hand.W5_value m ρ c), (h c).2⟩)
    (Cert.KernelIdeal.Hand.run_main (F := Ideal) m ρ), ?_⟩
  refine (θ_run Cert.ReferenceIdeal.defs _ _).mono (fun _ h c => ⟨(h c).1.trans ?_, (h c).2⟩) (Cert.Pairwise.Ref.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
